-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S262144 : Shape := ⟨1, ![262144]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8192x256 .f32) (main_arg1 : IVec S262144 32) (main_arg2 : IVec S262144 32) (main_arg3 : FVec F S256x128 .f32) (main_arg4 : FVec F S128 .f32) (main_arg5 : FVec F S128x128 .f32) (main_arg6 : FVec F S128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S8192x256 : Shape := ⟨2, ![8192, 256]⟩
abbrev S262144 : Shape := ⟨1, ![262144]⟩
abbrev S256x128 : Shape := ⟨2, ![256, 128]⟩
abbrev S128 : Shape := ⟨1, ![128]⟩
abbrev S128x128 : Shape := ⟨2, ![128, 128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S262144x256 : Shape := ⟨2, ![262144, 256]⟩
abbrev S1x128 : Shape := ⟨2, ![1, 128]⟩
abbrev S8192x128 : Shape := ⟨2, ![8192, 128]⟩
abbrev S1024x256 : Shape := ⟨2, ![1024, 256]⟩
abbrev S1024x128 : Shape := ⟨2, ![1024, 128]⟩
abbrev S262144x128 : Shape := ⟨2, ![262144, 128]⟩
abbrev S8192x8192 : Shape := ⟨2, ![8192, 8192]⟩
abbrev S1024x1024 : Shape := ⟨2, ![1024, 1024]⟩
abbrev S128x1024 : Shape := ⟨2, ![128, 1024]⟩

abbrev nBuf : Space → Nat
  | .hbm => 70
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S8192, .f32⟩
  | .hbm, ⟨21, _⟩ => ⟨S262144x1, .i32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x256, .f32⟩
  | .hbm, ⟨39, _⟩ => ⟨S_, .f32⟩
  | .hbm, ⟨40, _⟩ => ⟨S8192x256, .f32⟩
  | .hbm, ⟨41, _⟩ => ⟨S262144x1, .i32⟩
  | .hbm, ⟨42, _⟩ => ⟨S8192x256, .f32⟩
  | .hbm, ⟨43, _⟩ => ⟨S8192x1, .f32⟩
  | .hbm, ⟨44, _⟩ => ⟨S8192x256, .f32⟩
  | .hbm, ⟨45, _⟩ => ⟨S8192x256, .f32⟩
  | .hbm, ⟨46, _⟩ => ⟨S1x128, .f32⟩
  | .hbm, ⟨47, _⟩ => ⟨S8192x128, .f32⟩
  | .hbm, ⟨48, _⟩ => ⟨S8192x1, .f32⟩
  | .hbm, ⟨49, _⟩ => ⟨S8192x128, .f32⟩
  | .hbm, ⟨50, _⟩ => ⟨S8192x128, .f32⟩
  | .hbm, ⟨51, _⟩ => ⟨S_, .i32⟩
  | .hbm, ⟨52, _⟩ => ⟨S262144, .i32⟩
  | .hbm, ⟨53, _⟩ => ⟨S262144, .i1⟩
  | .hbm, ⟨54, _⟩ => ⟨S_, .i32⟩
  | .hbm, ⟨55, _⟩ => ⟨S262144, .i32⟩
  | .hbm, ⟨56, _⟩ => ⟨S262144, .i32⟩
  | .hbm, ⟨57, _⟩ => ⟨S262144, .i32⟩
  | .hbm, ⟨58, _⟩ => ⟨S262144x1, .i32⟩
  | .hbm, ⟨59, _⟩ => ⟨S262144x128, .f32⟩
  | .hbm, ⟨60, _⟩ => ⟨S_, .f32⟩
  | .hbm, ⟨61, _⟩ => ⟨S8192x128, .f32⟩
  | .hbm, ⟨62, _⟩ => ⟨S262144x1, .i32⟩
  | .hbm, ⟨63, _⟩ => ⟨S8192x128, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S1x128, .f32⟩
  | .hbm, ⟨68, _⟩ => ⟨S8192x128, .f32⟩
  | .hbm, ⟨69, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x1024, .f32⟩
  | .local _ .vmem, ⟨17, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  shapeCasts_S128_S1x128 : S128.ShapeCasts S1x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  scatter_S8192_S262144x1_S262144_n_0_0_1_wf : ScatterDims.WF S8192 S262144x1 S262144 [] [0] [0] 1
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S1024x256_S256x128_S1024x128_1_0_0_1_n_n_wf : DotDims.WF S1024x256 S256x128 S1024x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v29) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S262144 : Shape := ⟨1, ![262144]⟩
abbrev S256x128 : Shape := ⟨2, ![256, 128]⟩
abbrev S128 : Shape := ⟨1, ![128]⟩
abbrev S128x128 : Shape := ⟨2, ![128, 128]⟩
abbrev S_ : Shape := ⟨0, ![]⟩
abbrev S8192 : Shape := ⟨1, ![8192]⟩
abbrev S262144x1 : Shape := ⟨2, ![262144, 1]⟩
abbrev S8192x1 : Shape := ⟨2, ![8192, 1]⟩
abbrev S262144x256 : Shape := ⟨2, ![262144, 256]⟩
abbrev S8192x128 : Shape := ⟨2, ![8192, 128]⟩
abbrev S1x128 : Shape := ⟨2, ![1, 128]⟩
abbrev S262144x128 : Shape := ⟨2, ![262144, 128]⟩
abbrev S128x8192 : Shape := ⟨2, ![128, 8192]⟩
abbrev S8192x8192 : Shape := ⟨2, ![8192, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S262144, .i32⟩
  | .hbm, ⟨2, _⟩ => ⟨S262144, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S262144, .f32⟩
  | .hbm, ⟨19, _⟩ => ⟨S_, .f32⟩
  | .hbm, ⟨20, _⟩ => ⟨S8192, .f32⟩
  | .hbm, ⟨21, _⟩ => ⟨S262144x1, .i32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x256, .f32⟩
  | .hbm, ⟨39, _⟩ => ⟨S_, .f32⟩
  | .hbm, ⟨40, _⟩ => ⟨S8192x256, .f32⟩
  | .hbm, ⟨41, _⟩ => ⟨S262144x1, .i32⟩
  | .hbm, ⟨42, _⟩ => ⟨S8192x256, .f32⟩
  | .hbm, ⟨43, _⟩ => ⟨S8192x1, .f32⟩
  | .hbm, ⟨44, _⟩ => ⟨S8192x256, .f32⟩
  | .hbm, ⟨45, _⟩ => ⟨S8192x256, .f32⟩
  | .hbm, ⟨46, _⟩ => ⟨S8192x128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192x128, .f32⟩
  | .hbm, ⟨52, _⟩ => ⟨S8192x128, .f32⟩
  | .hbm, ⟨53, _⟩ => ⟨S8192x1, .f32⟩
  | .hbm, ⟨54, _⟩ => ⟨S8192x128, .f32⟩
  | .hbm, ⟨55, _⟩ => ⟨S8192x128, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x128, .f32⟩
  | .hbm, ⟨65, _⟩ => ⟨S_, .f32⟩
  | .hbm, ⟨66, _⟩ => ⟨S8192x128, .f32⟩
  | .hbm, ⟨67, _⟩ => ⟨S262144x1, .i32⟩
  | .hbm, ⟨68, _⟩ => ⟨S8192x128, .f32⟩
  | .hbm, ⟨69, _⟩ => ⟨S8192x1, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S1x128, .f32⟩
  | .hbm, ⟨74, _⟩ => ⟨S8192x128, .f32⟩
  | .hbm, ⟨75, _⟩ => ⟨S8192x128, .f32⟩
  | .hbm, ⟨76, _⟩ => ⟨S128x8192, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  scatter_S8192_S262144x1_S262144_n_0_0_1_wf : ScatterDims.WF S8192 S262144x1 S262144 [] [0] [0] 1
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x128_S8192x128_1_0_0_1_n_n_wf : DotDims.WF S8192x256 S256x128 S8192x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Bodies.lean ====
/-
  The three kernel regions' bodies, each at a parameter `V` (the TensorCore's buffer contents when the region is
  entered). Per region: each window's block at a grid point read off its array; the rectangles the body loads and
  stores (each the whole staging buffer); what the body leaves in the output window's buffer as a function of the
  input blocks (the skeleton's payload, stored over the whole buffer); the body's triple on whole staging memrefs;
  the pipeline's proof data; and the body obligation at every grid point. An input window's buffer holds its block
  at every point, fetched there or not: where it is not fetched its block index has not moved. The decode region's
  two input windows stage one array, each holding half of it.
-/
import proofs.«129852_j3504693313816_1_alg».proof.Proof.Gen.KernelIdeal.Launch
import proofs.«129852_j3504693313816_1_alg».proof.Proof.Gen.KernelIdeal.Skeleton
import proofs.«129852_j3504693313816_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0: the first linear region: the row block times the weights plus the bias row, clamped below at zero -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its staging buffer -/

abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S1024x128 := Rect.unit (s := S1024x128) ![0, 0] S1024x128.size inb_S1024x128_S1024x128_0_0

/-! ## What the body leaves in the output window's buffer -/

/-- Window 3's staging buffer after the body, from the input windows' blocks: its one store, over the whole buffer,
    of the payload of the blocks loaded whole. -/
def out0_3 (x0 : Vec F S1024x256 .f32) (x1 : Vec F S256x128 .f32) (x2 : Vec F S1x128 .f32) : Vec F S1024x128 .f32 :=
  View.canon [⟨r0_3, k0_pay1 (View.ld x0 r0_0) (View.ld x1 r0_1) (View.ld x2 r0_2)⟩]

/-- The store's rectangle is the whole buffer, so it covers it. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

/-! ## The body's triple -/

set_option maxHeartbeats 1000000 in
/-- The kernel body on whole staging memrefs, the inputs' at read contents and the output's at anything, runs to the
    continuation holding the inputs' as they were and the output's at `out0_3` of the inputs'. -/
theorem sound_kernel0 (c : Dev nD) (E : Set ℕ) (i : grid0.Coords) (arg0 : Memref sig .tc .vmem S1024x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S1024x128 .f32) (harg3 : arg3.IsWhole)
    (x0 : Vec F S1024x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second linear region: the row block times the weights plus the bias row -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its staging buffer -/

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S1024x128 := Rect.unit (s := S1024x128) ![0, 0] S1024x128.size inb_S1024x128_S1024x128_0_0

/-! ## What the body leaves in the output window's buffer -/

/-- Window 3's staging buffer after the body, from the input windows' blocks: its one store, over the whole buffer,
    of the payload of the blocks loaded whole. -/
def out1_3 (x0 : Vec F S1024x128 .f32) (x1 : Vec F S128x128 .f32) (x2 : Vec F S1x128 .f32) : Vec F S1024x128 .f32 :=
  View.canon [⟨r1_3, k1_pay1 (View.ld x0 r1_0) (View.ld x1 r1_1) (View.ld x2 r1_2)⟩]

/-- The store's rectangle is the whole buffer, so it covers it. -/
theorem cover1_3 (p0 : Vec F S1024x128 .f32) (y : S1024x128.Idx) :
    ∃ pc ∈ ([⟨r1_3, p0⟩] : List (View.Piece (Elt F) S1024x128 .f32)), y ∈ pc.1.set :=
  View.cover_of_tiled [⟨r1_3, p0⟩] S1024x128.size (by rfl) y

/-! ## The body's triple -/

set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords) (arg0 : Memref sig .tc .vmem S1024x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S1024x128 .f32) (harg3 : arg3.IsWhole)
    (x0 : Vec F S1024x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the decode region: the logistic of the products of a row block's rows with another row block's rows -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its staging buffer -/

abbrev r2_0 : Rect S1024x128 := Rect.unit (s := S1024x128) ![0, 0] S1024x128.size inb_S1024x128_S1024x128_0_0
abbrev r2_1 : Rect S1024x128 := Rect.unit (s := S1024x128) ![0, 0] S1024x128.size inb_S1024x128_S1024x128_0_0
abbrev r2_2 : Rect S1024x1024 := Rect.unit (s := S1024x1024) ![0, 0] S1024x1024.size inb_S1024x1024_S1024x1024_0_0

/-! ## What the body leaves in the output window's buffer -/

/-- Window 2's staging buffer after the body, from the input windows' blocks: its one store, over the whole buffer,
    of the payload of the blocks loaded whole. -/
def out2_2 (x0 : Vec F S1024x128 .f32) (x1 : Vec F S1024x128 .f32) : Vec F S1024x1024 .f32 :=
  View.canon [⟨r2_2, k2_pay1 (View.ld x0 r2_0) (View.ld x1 r2_1)⟩]

/-- The store's rectangle is the whole buffer, so it covers it. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- The kernel body on whole staging memrefs, the inputs' at read contents and the output's at anything, runs to the
    continuation holding the inputs' as they were and the output's at `out2_2` of the inputs'. -/
theorem sound_kernel2 (c : Dev nD) (E : Set ℕ) (i : grid2.Coords) (arg0 : Memref sig .tc .vmem S1024x128 .f32) (harg0 : arg0.IsWhole) (arg1 : Memref sig .tc .vmem S1024x128 .f32) (harg1 : arg1.IsWhole) (arg2 : Memref sig .tc .vmem S1024x1024 .f32) (harg2 : arg2.IsWhole)
    (x0 : Vec F S1024x128 .f32) (x1 : Vec F S1024x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__decode_kernel i arg0 harg0 arg1 harg1 arg2 harg2) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the
    scoped rest and the generator register, untouched; nothing owed; the two input windows, which stage one
    array, each hold half of it, the output the whole of its own. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Shares.lean ====
/-
  The decode region stages ONE array through two input windows (the row block and the column block of the same matrix).
  A window holds its array at a share; two windows on one array cannot both hold it whole, so each holds half: this
  module splits the core's unscoped buffers into the region's arrays at those shares on entry, and joins them back on exit.
-/
import proofs.«129852_j3504693313816_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The arrays the decode region's windows stage are two buffers: the row operand, staged by both input windows, and the result. -/
theorem arrImage2 : (Finset.univ.image (Pipeline.arrRef spec2) : Finset (Ref sig .tc)) = {main_v49, main_v50} := by decide

theorem sub2 : ({main_v49, main_v50} : Finset (Ref sig .tc)) ⊆ Finset.univ.filter (fun b : Ref sig .tc => ¬ b.isScoped) := by decide

/-- Entering the decode region: of the core's unscoped buffers, the result array goes to the output window whole, and the
    ONE operand array is held half by each of the two input windows that stage it (the full share is its left half
    composed with its right half); every other buffer bypasses the region. -/
theorem entry2 (c : Dev nD) (dat : Dat τ (Elt F) Unit ℕ (UR sig nD τ) ℕ cfg2 c)
    (hq0 : dat.q 0 = (fullShare : PosShare TreeShare).left) (hq1 : dat.q 1 = (fullShare : PosShare TreeShare).right)
    (V : (b : Ref sig .tc) → Buf (Elt F) ((c : Thread nD τ).loc b)) (hA : ∀ w, dat.A w = V (Pipeline.arrRef spec2 w)) :
    (unscopedBufs c V : sProp 𝕄) ⊢ iprop(dat.arrays dat.A ∗ Pipeline.unscopedRest spec2 c V) := by
  have hs0 : dat.share 0 = (fullShare : PosShare TreeShare).left := by unfold Dat.share; rw [if_neg (by decide)]; exact hq0
  have hs1 : dat.share 1 = (fullShare : PosShare TreeShare).right := by unfold Dat.share; rw [if_neg (by decide)]; exact hq1
  have hs2 : dat.share 2 = fullShare := by unfold Dat.share; rw [if_pos (by decide)]
  have hsplit : (((c : Thread nD τ).loc main_v49 ↦{fullShare} V main_v49) : sProp 𝕄)
      ⊢ iprop(((c : Thread nD τ).loc main_v49 ↦{(fullShare : PosShare TreeShare).left} V main_v49) ∗ ((c : Thread nD τ).loc main_v49 ↦{(fullShare : PosShare TreeShare).right} V main_v49)) :=
    (pointsTo_share (PosShare.mem_left_op_right (fullShare : PosShare TreeShare))).1
  unfold unscopedBufs Pipeline.unscopedRest
  rw [arrImage2, bigSep_sdiff_split sub2, bigSep_insert (by decide), bigSep_singleton]
  unfold Dat.arrays
  rw [bigSep_W2, (arr_whole2 0).set_eq_univ, (arr_whole2 2).set_eq_univ, hs0, hs1, hs2, hA 0, hA 1, hA 2]
  show iprop((((c : Thread nD τ).loc main_v49 ↦{fullShare} V main_v49) ∗ ((c : Thread nD τ).loc main_v50 ↦{fullShare} V main_v50)) ∗ _) ⊢ _
  iintro ⟨⟨H49, H50⟩, Hrest⟩
  ihave H' := hsplit $$ H49
  icases H' with ⟨Hl, Hr⟩
  isplitr [Hrest]
  · isplitl [Hl]; · iexact Hl
    isplitl [Hr]; · iexact Hr
    iexact H50
  iexact Hrest

/-- Leaving the decode region: the two halves of the operand array, at the same contents, are the array whole again; with
    the result array at what the region wrote and the bypassing buffers, these are the core's unscoped buffers at any
    valuation that has those contents at the two arrays and agrees with the entry valuation everywhere else. -/
theorem exit2 (c : Dev nD) (dat : Dat τ (Elt F) Unit ℕ (UR sig nD τ) ℕ cfg2 c)
    (hq0 : dat.q 0 = (fullShare : PosShare TreeShare).left) (hq1 : dat.q 1 = (fullShare : PosShare TreeShare).right)
    (V V' : (b : Ref sig .tc) → Buf (Elt F) ((c : Thread nD τ).loc b))
    (G : (w : Fin cfg2.W) → Buf (Elt F) ((cfg2.win w).arr.view.loc (c : Thread nD τ)))
    (hG0 : G 0 = V' main_v49) (hG1 : G 1 = V' main_v49) (hG2 : G 2 = V' main_v50)
    (hrest : ∀ b, b ∉ ({main_v49, main_v50} : Finset (Ref sig .tc)) → V' b = V b) :
    iprop(dat.arrays G ∗ Pipeline.unscopedRest spec2 c V) ⊢ (unscopedBufs c V' : sProp 𝕄) := by
  have hs0 : dat.share 0 = (fullShare : PosShare TreeShare).left := by unfold Dat.share; rw [if_neg (by decide)]; exact hq0
  have hs1 : dat.share 1 = (fullShare : PosShare TreeShare).right := by unfold Dat.share; rw [if_neg (by decide)]; exact hq1
  have hs2 : dat.share 2 = fullShare := by unfold Dat.share; rw [if_pos (by decide)]
  have hjoin : iprop(((c : Thread nD τ).loc main_v49 ↦{(fullShare : PosShare TreeShare).left} V' main_v49) ∗ ((c : Thread nD τ).loc main_v49 ↦{(fullShare : PosShare TreeShare).right} V' main_v49))
      ⊢ (((c : Thread nD τ).loc main_v49 ↦{fullShare} V' main_v49) : sProp 𝕄) :=
    (pointsTo_share (PosShare.mem_left_op_right (fullShare : PosShare TreeShare))).2
  unfold unscopedBufs Pipeline.unscopedRest
  rw [arrImage2, bigSep_sdiff_split sub2, bigSep_insert (by decide), bigSep_singleton]
  unfold Dat.arrays
  rw [bigSep_W2, (arr_whole2 0).set_eq_univ, (arr_whole2 2).set_eq_univ, hs0, hs1, hs2, hG0, hG1, hG2]
  show _ ⊢ iprop((((c : Thread nD τ).loc main_v49 ↦{fullShare} V' main_v49) ∗ ((c : Thread nD τ).loc main_v50 ↦{fullShare} V' main_v50)) ∗ _)
  iintro ⟨⟨Hl, Hr, H50⟩, Hrest⟩
  isplitr [Hrest]
  · isplitr [H50]
    · iapply hjoin
      isplitl [Hl]; · iexact Hl
      iexact Hr
    iexact H50
  iapply (Entails.of_eq (bigSep_congr fun b hb => by rw [hrest b (Finset.mem_sdiff.mp hb).2]))
  iexact Hrest

end Cert.KernelIdeal.Hand
end
-- ==== Proof.RunAll.lean ====
/-
  The whole run of the kernel's program: forty host operations, the first linear region, twenty host operations, the second
  linear region, the decode region. Between two items every unscoped buffer of a core is held at a named valuation: the launch
  memory, then the fold of a stretch of host operations, then — after a region — the same valuation with the region's arrays at
  what its write-backs leave. A region takes its arrays out of that state, runs its pipeline over them, and puts them back;
  the decode region takes its one operand array half for each of the two windows that stage it. At the end every unscoped
  buffer is read off the last valuation: the arguments walk back to the launch memory (nothing writes them), and the result
  array holds what the decode region's write-backs left.
-/
import proofs.«129852_j3504693313816_1_alg».proof.Proof.Bodies
import proofs.«129852_j3504693313816_1_alg».proof.Proof.Shares
import proofs.«129852_j3504693313816_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the first stretch of host operations (the first linear region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first linear region: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second linear region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second linear region (the decode region's entry). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the decode region: the result array at what its write-backs leave; the operand array, staged by both input
    windows and never written, and every other buffer as entered. -/
def W5 (c : Dev nD) : Valuation τ sig (Elt F) :=
  Function.update (W4 m c) (Proc.devRef .tc main_v50) ((dat2 (V4 m) c).arrAt 2 cfg2.N)
abbrev V5 : (c : Dev nD) → (b : Ref sig .tc) → Buf (Elt F) ((c : Thread nD τ).loc b) := fun c b => W5 m c b
theorem W5_result (c : Dev nD) : W5 m c (Proc.devRef .tc main_v50) = (dat2 (V4 m) c).arrAt 2 cfg2.N := by
  unfold W5; exact Function.update_self _ _ _
theorem W5_of_ne (c : Dev nD) (b : Ref sig .tc) (hb : b ≠ main_v50) :
    W5 m c (Proc.devRef .tc b) = W4 m c (Proc.devRef .tc b) := by
  unfold W5; exact Function.update_of_ne (StableHlo.devRef_ne_of_ne hb) _ _

/-! ### The arguments end as launched: no host operation writes one, and a region reads one through an input window or bypasses it -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := (W4_arr m c 1).trans (((dat1 (V3 m) c).arrAt_in 1 rfl _).trans (A_eq1 (V3 m) c 1))
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0: entered from every unscoped buffer at the valuation before it, left at the valuation after it; its arrays are
    split out of the unscoped buffers and put back at what the write-backs leave; the generator register goes into the
    region's invariant and comes back; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the valuation before it, left at the valuation after it; its arrays are
    split out of the unscoped buffers and put back at what the write-backs leave; the generator register goes into the
    region's invariant and comes back; nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The decode region's operand array at the end is what it was at entry (an input is never written), at both windows. -/
theorem arr2_in0 (c : Dev nD) : (dat2 (V4 m) c).arrAt 0 cfg2.N = V5 m c main_v49 :=
  ((dat2 (V4 m) c).arrAt_in 0 rfl _).trans ((A_eq2 (V4 m) c 0).trans (W5_of_ne m c main_v49 (by decide)).symm)
theorem arr2_in1 (c : Dev nD) : (dat2 (V4 m) c).arrAt 1 cfg2.N = V5 m c main_v49 :=
  ((dat2 (V4 m) c).arrAt_in 1 rfl _).trans ((A_eq2 (V4 m) c 1).trans (W5_of_ne m c main_v49 (by decide)).symm)

set_option backward.isDefEq.respectTransparency.types false in
/-- The decode region: as the linear regions, but the one operand array is split half and half between the two windows
    that stage it on entry (`entry2`) and joined again on exit (`exit2`). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := entry2 (F := F) c (dat2 (V4 m) c) rfl rfl (V4 m c) (fun w => A_eq2 (V4 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) c (dat2 (V4 m) c) rfl rfl (V4 m c) (V5 m c) ((dat2 (V4 m) c).arrAt · cfg2.N)
      (arr2_in0 m c) (arr2_in1 m c) (W5_result m c).symm
      (fun b hb => W5_of_ne m c b fun e => hb (by rw [e]; decide))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.BodiesBits.lean ====
/-
  The three kernel regions' bodies, each at a parameter `V` (the TensorCore's buffer contents when the region is
  entered). Per region: each window's block at a grid point read off its array; the rectangles the body loads and
  stores (each the whole staging buffer); what the body leaves in the output window's buffer as a function of the
  input blocks (the skeleton's payload, stored over the whole buffer); the body's triple on whole staging memrefs;
  the pipeline's proof data; and the body obligation at every grid point. An input window's buffer holds its block
  at every point, fetched there or not: where it is not fetched its block index has not moved. The decode region's
  two input windows stage one array, each holding half of it.
-/
import proofs.«129852_j3504693313816_1_alg».proof.Proof.Gen.Kernel.Launch
import proofs.«129852_j3504693313816_1_alg».proof.Proof.Gen.Kernel.Skeleton
import proofs.«129852_j3504693313816_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # Region 0: the first linear region: the row block times the weights plus the bias row, clamped below at zero -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its staging buffer -/

abbrev r0_0 : Rect S1024x256 := Rect.unit (s := S1024x256) ![0, 0] S1024x256.size inb_S1024x256_S1024x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S1024x128 := Rect.unit (s := S1024x128) ![0, 0] S1024x128.size inb_S1024x128_S1024x128_0_0

/-! ## What the body leaves in the output window's buffer -/

/-- Window 3's staging buffer after the body, from the input windows' blocks: its one store, over the whole buffer,
    of the payload of the blocks loaded whole. -/
def out0_3 (x0 : Vec F S1024x256 .f32) (x1 : Vec F S256x128 .f32) (x2 : Vec F S1x128 .f32) : Vec F S1024x128 .f32 :=
  View.canon [⟨r0_3, k0_pay1 (View.ld x0 r0_0) (View.ld x1 r0_1) (View.ld x2 r0_2)⟩]

/-- The store's rectangle is the whole buffer, so it covers it. -/
theorem cover0_3 (p0 : Vec F S1024x128 .f32) (y : S1024x128.Idx) :
    ∃ pc ∈ ([⟨r0_3, p0⟩] : List (View.Piece (Elt F) S1024x128 .f32)), y ∈ pc.1.set :=
  View.cover_of_tiled [⟨r0_3, p0⟩] S1024x128.size (by rfl) y

/-! ## The body's triple -/

set_option maxHeartbeats 1000000 in
/-- The kernel body on whole staging memrefs, the inputs' at read contents and the output's at anything, runs to the
    continuation holding the inputs' as they were and the output's at `out0_3` of the inputs'. -/
theorem sound_kernel0 (c : Dev nD) (E : Set ℕ) (i : grid0.Coords) (arg0 : Memref sig .tc .vmem S1024x256 .f32) (harg0 : arg0.IsWhole) (arg1 : Memref sig .tc .vmem S256x128 .f32) (harg1 : arg1.IsWhole) (arg2 : Memref sig .tc .vmem S1x128 .f32) (harg2 : arg2.IsWhole) (arg3 : Memref sig .tc .vmem S1024x128 .f32) (harg3 : arg3.IsWhole)
    (x0 : Vec F S1024x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_kernel i arg0 harg0 arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the second linear region: the row block times the weights plus the bias row -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its staging buffer -/

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S1024x128 := Rect.unit (s := S1024x128) ![0, 0] S1024x128.size inb_S1024x128_S1024x128_0_0

/-! ## What the body leaves in the output window's buffer -/

/-- Window 3's staging buffer after the body, from the input windows' blocks: its one store, over the whole buffer,
    of the payload of the blocks loaded whole. -/
def out1_3 (x0 : Vec F S1024x128 .f32) (x1 : Vec F S128x128 .f32) (x2 : Vec F S1x128 .f32) : Vec F S1024x128 .f32 :=
  View.canon [⟨r1_3, k1_pay1 (View.ld x0 r1_0) (View.ld x1 r1_1) (View.ld x2 r1_2)⟩]

/-- The store's rectangle is the whole buffer, so it covers it. -/
theorem cover1_3 (p0 : Vec F S1024x128 .f32) (y : S1024x128.Idx) :
    ∃ pc ∈ ([⟨r1_3, p0⟩] : List (View.Piece (Elt F) S1024x128 .f32)), y ∈ pc.1.set :=
  View.cover_of_tiled [⟨r1_3, p0⟩] S1024x128.size (by rfl) y

/-! ## The body's triple -/

set_option maxHeartbeats 1000000 in
/-- The kernel body on whole staging memrefs, the inputs' at read contents and the output's at anything, runs to the
    continuation holding the inputs' as they were and the output's at `out1_3` of the inputs'. -/
theorem sound_kernel1 (c : Dev nD) (E : Set ℕ) (i : grid1.Coords) (arg0 : Memref sig .tc .vmem S1024x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S1024x128 .f32) (harg3 : arg3.IsWhole)
    (x0 : Vec F S1024x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__linear_kernel i arg0 harg0 arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the decode region: the logistic of the products of a row block's rows with another row block's rows -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each the whole of its staging buffer -/

abbrev r2_0 : Rect S1024x128 := Rect.unit (s := S1024x128) ![0, 0] S1024x128.size inb_S1024x128_S1024x128_0_0
abbrev r2_1 : Rect S1024x128 := Rect.unit (s := S1024x128) ![0, 0] S1024x128.size inb_S1024x128_S1024x128_0_0
abbrev r2_2 : Rect S1024x1024 := Rect.unit (s := S1024x1024) ![0, 0] S1024x1024.size inb_S1024x1024_S1024x1024_0_0

/-! ## What the body leaves in the output window's buffer -/

/-- Window 2's staging buffer after the body, from the input windows' blocks: its one store, over the whole buffer,
    of the payload of the blocks loaded whole. -/
def out2_2 (x0 : Vec F S1024x128 .f32) (x1 : Vec F S1024x128 .f32) : Vec F S1024x1024 .f32 :=
  View.canon [⟨r2_2, k2_pay1 (View.ld x0 r2_0) (View.ld x1 r2_1)⟩]

/-- The store's rectangle is the whole buffer, so it covers it. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- The kernel body on whole staging memrefs, the inputs' at read contents and the output's at anything, runs to the
    continuation holding the inputs' as they were and the output's at `out2_2` of the inputs'. -/
theorem sound_kernel2 (c : Dev nD) (E : Set ℕ) (i : grid2.Coords) (arg0 : Memref sig .tc .vmem S1024x128 .f32) (harg0 : arg0.IsWhole) (arg1 : Memref sig .tc .vmem S1024x128 .f32) (harg1 : arg1.IsWhole) (arg2 : Memref sig .tc .vmem S1024x1024 .f32) (harg2 : arg2.IsWhole)
    (x0 : Vec F S1024x128 .f32) (x1 : Vec F S1024x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__decode_kernel i arg0 harg0 arg1 harg1 arg2 harg2) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant the
    scoped rest and the generator register, untouched; nothing owed; the two input windows, which stage one
    array, each hold half of it, the output the whole of its own. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => (fullShare : PosShare TreeShare).left
    | ⟨1, _⟩ => (fullShare : PosShare TreeShare).right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.SharesBits.lean ====
/-
  The decode region stages ONE array through two input windows (the row block and the column block of the same matrix).
  A window holds its array at a share; two windows on one array cannot both hold it whole, so each holds half: this
  module splits the core's unscoped buffers into the region's arrays at those shares on entry, and joins them back on exit.
-/
import proofs.«129852_j3504693313816_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The arrays the decode region's windows stage are two buffers: the row operand, staged by both input windows, and the result. -/
theorem arrImage2 : (Finset.univ.image (Pipeline.arrRef spec2) : Finset (Ref sig .tc)) = {main_v49, main_v50} := by decide

theorem sub2 : ({main_v49, main_v50} : Finset (Ref sig .tc)) ⊆ Finset.univ.filter (fun b : Ref sig .tc => ¬ b.isScoped) := by decide

/-- Entering the decode region: of the core's unscoped buffers, the result array goes to the output window whole, and the
    ONE operand array is held half by each of the two input windows that stage it (the full share is its left half
    composed with its right half); every other buffer bypasses the region. -/
theorem entry2 (c : Dev nD) (dat : Dat τ (Elt F) Unit ℕ (UR sig nD τ) ℕ cfg2 c)
    (hq0 : dat.q 0 = (fullShare : PosShare TreeShare).left) (hq1 : dat.q 1 = (fullShare : PosShare TreeShare).right)
    (V : (b : Ref sig .tc) → Buf (Elt F) ((c : Thread nD τ).loc b)) (hA : ∀ w, dat.A w = V (Pipeline.arrRef spec2 w)) :
    (unscopedBufs c V : sProp 𝕄) ⊢ iprop(dat.arrays dat.A ∗ Pipeline.unscopedRest spec2 c V) := by
  have hs0 : dat.share 0 = (fullShare : PosShare TreeShare).left := by unfold Dat.share; rw [if_neg (by decide)]; exact hq0
  have hs1 : dat.share 1 = (fullShare : PosShare TreeShare).right := by unfold Dat.share; rw [if_neg (by decide)]; exact hq1
  have hs2 : dat.share 2 = fullShare := by unfold Dat.share; rw [if_pos (by decide)]
  have hsplit : (((c : Thread nD τ).loc main_v49 ↦{fullShare} V main_v49) : sProp 𝕄)
      ⊢ iprop(((c : Thread nD τ).loc main_v49 ↦{(fullShare : PosShare TreeShare).left} V main_v49) ∗ ((c : Thread nD τ).loc main_v49 ↦{(fullShare : PosShare TreeShare).right} V main_v49)) :=
    (pointsTo_share (PosShare.mem_left_op_right (fullShare : PosShare TreeShare))).1
  unfold unscopedBufs Pipeline.unscopedRest
  rw [arrImage2, bigSep_sdiff_split sub2, bigSep_insert (by decide), bigSep_singleton]
  unfold Dat.arrays
  rw [bigSep_W2, (arr_whole2 0).set_eq_univ, (arr_whole2 2).set_eq_univ, hs0, hs1, hs2, hA 0, hA 1, hA 2]
  show iprop((((c : Thread nD τ).loc main_v49 ↦{fullShare} V main_v49) ∗ ((c : Thread nD τ).loc main_v50 ↦{fullShare} V main_v50)) ∗ _) ⊢ _
  iintro ⟨⟨H49, H50⟩, Hrest⟩
  ihave H' := hsplit $$ H49
  icases H' with ⟨Hl, Hr⟩
  isplitr [Hrest]
  · isplitl [Hl]; · iexact Hl
    isplitl [Hr]; · iexact Hr
    iexact H50
  iexact Hrest

/-- Leaving the decode region: the two halves of the operand array, at the same contents, are the array whole again; with
    the result array at what the region wrote and the bypassing buffers, these are the core's unscoped buffers at any
    valuation that has those contents at the two arrays and agrees with the entry valuation everywhere else. -/
theorem exit2 (c : Dev nD) (dat : Dat τ (Elt F) Unit ℕ (UR sig nD τ) ℕ cfg2 c)
    (hq0 : dat.q 0 = (fullShare : PosShare TreeShare).left) (hq1 : dat.q 1 = (fullShare : PosShare TreeShare).right)
    (V V' : (b : Ref sig .tc) → Buf (Elt F) ((c : Thread nD τ).loc b))
    (G : (w : Fin cfg2.W) → Buf (Elt F) ((cfg2.win w).arr.view.loc (c : Thread nD τ)))
    (hG0 : G 0 = V' main_v49) (hG1 : G 1 = V' main_v49) (hG2 : G 2 = V' main_v50)
    (hrest : ∀ b, b ∉ ({main_v49, main_v50} : Finset (Ref sig .tc)) → V' b = V b) :
    iprop(dat.arrays G ∗ Pipeline.unscopedRest spec2 c V) ⊢ (unscopedBufs c V' : sProp 𝕄) := by
  have hs0 : dat.share 0 = (fullShare : PosShare TreeShare).left := by unfold Dat.share; rw [if_neg (by decide)]; exact hq0
  have hs1 : dat.share 1 = (fullShare : PosShare TreeShare).right := by unfold Dat.share; rw [if_neg (by decide)]; exact hq1
  have hs2 : dat.share 2 = fullShare := by unfold Dat.share; rw [if_pos (by decide)]
  have hjoin : iprop(((c : Thread nD τ).loc main_v49 ↦{(fullShare : PosShare TreeShare).left} V' main_v49) ∗ ((c : Thread nD τ).loc main_v49 ↦{(fullShare : PosShare TreeShare).right} V' main_v49))
      ⊢ (((c : Thread nD τ).loc main_v49 ↦{fullShare} V' main_v49) : sProp 𝕄) :=
    (pointsTo_share (PosShare.mem_left_op_right (fullShare : PosShare TreeShare))).2
  unfold unscopedBufs Pipeline.unscopedRest
  rw [arrImage2, bigSep_sdiff_split sub2, bigSep_insert (by decide), bigSep_singleton]
  unfold Dat.arrays
  rw [bigSep_W2, (arr_whole2 0).set_eq_univ, (arr_whole2 2).set_eq_univ, hs0, hs1, hs2, hG0, hG1, hG2]
  show _ ⊢ iprop((((c : Thread nD τ).loc main_v49 ↦{fullShare} V' main_v49) ∗ ((c : Thread nD τ).loc main_v50 ↦{fullShare} V' main_v50)) ∗ _)
  iintro ⟨⟨Hl, Hr, H50⟩, Hrest⟩
  isplitr [Hrest]
  · isplitr [H50]
    · iapply hjoin
      isplitl [Hl]; · iexact Hl
      iexact Hr
    iexact H50
  iapply (Entails.of_eq (bigSep_congr fun b hb => by rw [hrest b (Finset.mem_sdiff.mp hb).2]))
  iexact Hrest

end Cert.Kernel.Hand
end
-- ==== Proof.RunAllBits.lean ====
/-
  The whole run of the kernel's program: forty host operations, the first linear region, twenty host operations, the second
  linear region, the decode region. Between two items every unscoped buffer of a core is held at a named valuation: the launch
  memory, then the fold of a stretch of host operations, then — after a region — the same valuation with the region's arrays at
  what its write-backs leave. A region takes its arrays out of that state, runs its pipeline over them, and puts them back;
  the decode region takes its one operand array half for each of the two windows that stage it. At the end every unscoped
  buffer is read off the last valuation: the arguments walk back to the launch memory (nothing writes them), and the result
  array holds what the decode region's write-backs left.
-/
import proofs.«129852_j3504693313816_1_alg».proof.Proof.BodiesBits
import proofs.«129852_j3504693313816_1_alg».proof.Proof.SharesBits
import proofs.«129852_j3504693313816_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/

/-- Core `c`'s buffers at launch. -/
abbrev W0 : Dev nD → Valuation τ sig (Elt F) := fun c b => m (c, b)
/-- After the first stretch of host operations (the first linear region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first linear region: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second linear region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second linear region (the decode region's entry). -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the decode region: the result array at what its write-backs leave; the operand array, staged by both input
    windows and never written, and every other buffer as entered. -/
def W5 (c : Dev nD) : Valuation τ sig (Elt F) :=
  Function.update (W4 m c) (Proc.devRef .tc main_v50) ((dat2 (V4 m) c).arrAt 2 cfg2.N)
abbrev V5 : (c : Dev nD) → (b : Ref sig .tc) → Buf (Elt F) ((c : Thread nD τ).loc b) := fun c b => W5 m c b
theorem W5_result (c : Dev nD) : W5 m c (Proc.devRef .tc main_v50) = (dat2 (V4 m) c).arrAt 2 cfg2.N := by
  unfold W5; exact Function.update_self _ _ _
theorem W5_of_ne (c : Dev nD) (b : Ref sig .tc) (hb : b ≠ main_v50) :
    W5 m c (Proc.devRef .tc b) = W4 m c (Proc.devRef .tc b) := by
  unfold W5; exact Function.update_of_ne (StableHlo.devRef_ne_of_ne hb) _ _

/-! ### The arguments end as launched: no host operation writes one, and a region reads one through an input window or bypasses it -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 1).trans (((dat0 (V1 m) c).arrAt_in 1 rfl _).trans (A_eq0 (V1 m) c 1))
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := (W4_arr m c 1).trans (((dat1 (V3 m) c).arrAt_in 1 rfl _).trans (A_eq1 (V3 m) c 1))
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W5 m c) ∗ ∃ r, prngReg c r)

/-! ## The regions as items -/

set_option backward.isDefEq.respectTransparency.types false in
/-- Region 0: entered from every unscoped buffer at the valuation before it, left at the valuation after it; its arrays are
    split out of the unscoped buffers and put back at what the write-backs leave; the generator register goes into the
    region's invariant and comes back; nothing is owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the valuation before it, left at the valuation after it; its arrays are
    split out of the unscoped buffers and put back at what the write-backs leave; the generator register goes into the
    region's invariant and comes back; nothing is owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The decode region's operand array at the end is what it was at entry (an input is never written), at both windows. -/
theorem arr2_in0 (c : Dev nD) : (dat2 (V4 m) c).arrAt 0 cfg2.N = V5 m c main_v49 :=
  ((dat2 (V4 m) c).arrAt_in 0 rfl _).trans ((A_eq2 (V4 m) c 0).trans (W5_of_ne m c main_v49 (by decide)).symm)
theorem arr2_in1 (c : Dev nD) : (dat2 (V4 m) c).arrAt 1 cfg2.N = V5 m c main_v49 :=
  ((dat2 (V4 m) c).arrAt_in 1 rfl _).trans ((A_eq2 (V4 m) c 1).trans (W5_of_ne m c main_v49 (by decide)).symm)

set_option backward.isDefEq.respectTransparency.types false in
/-- The decode region: as the linear regions, but the one operand array is split half and half between the two windows
    that stage it on entry (`entry2`) and joined again on exit (`exit2`). -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := entry2 (F := F) c (dat2 (V4 m) c) rfl rfl (V4 m c) (fun w => A_eq2 (V4 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) c (dat2 (V4 m) c) rfl rfl (V4 m c) (V5 m c) ((dat2 (V4 m) c).arrAt · cfg2.N)
      (arr2_in0 m c) (arr2_in1 m c) (W5_result m c).symm
      (fun b hb => W5_of_ne m c b fun e => hb (by rw [e]; decide))
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as items, and the launch -/

/-- @main's five items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and in
    every final state each unscoped buffer of each core holds the last valuation's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.Frames.lean ====
/-
  The three frame conjuncts. Each program runs to the end without a fault and leaves its argument arrays as launched:
  for the kernel's program (at the word-level instance and at the ideal one) this is the run of its five items with every
  unscoped buffer read off the last valuation, where each argument walks back to the launch memory; for the reference it is
  its run with the result dropped.
-/
import proofs.«129852_j3504693313816_1_alg».proof.Defs
import proofs.«129852_j3504693313816_1_alg».proof.Proof.RunAll
import proofs.«129852_j3504693313816_1_alg».proof.Proof.RunAllBits
import proofs.«129852_j3504693313816_1_alg».proof.Proof.Gen.ReferenceIdeal.Run
import proofs.«129852_j3504693313816_1_alg».proof.Proof.Gen.Pre_finite_inputs

noncomputable section

namespace Cert.Proof.Frames

open Idealize.ShloMosaic Idealize.ShloMosaic.TcCoe Idealize.SL.Sem

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
      (h c _ (Cert.Kernel.Hand.mem_uc Cert.Kernel.main_arg1 (by decide))).trans (Cert.Kernel.Hand.W5_main_arg1 m c),
      (h c _ (Cert.Kernel.Hand.mem_uc Cert.Kernel.main_arg2 (by decide))).trans (Cert.Kernel.Hand.W5_main_arg2 m c),
      (h c _ (Cert.Kernel.Hand.mem_uc Cert.Kernel.main_arg3 (by decide))).trans (Cert.Kernel.Hand.W5_main_arg3 m c),
      (h c _ (Cert.Kernel.Hand.mem_uc Cert.Kernel.main_arg4 (by decide))).trans (Cert.Kernel.Hand.W5_main_arg4 m c),
      (h c _ (Cert.Kernel.Hand.mem_uc Cert.Kernel.main_arg5 (by decide))).trans (Cert.Kernel.Hand.W5_main_arg5 m c),
      (h c _ (Cert.Kernel.Hand.mem_uc Cert.Kernel.main_arg6 (by decide))).trans (Cert.Kernel.Hand.W5_main_arg6 m c)⟩)
    (Cert.Kernel.Hand.run_all (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c),
      (h c _ (Cert.KernelIdeal.Hand.mem_uc Cert.KernelIdeal.main_arg2 (by decide))).trans (Cert.KernelIdeal.Hand.W5_main_arg2 m c),
      (h c _ (Cert.KernelIdeal.Hand.mem_uc Cert.KernelIdeal.main_arg3 (by decide))).trans (Cert.KernelIdeal.Hand.W5_main_arg3 m c),
      (h c _ (Cert.KernelIdeal.Hand.mem_uc Cert.KernelIdeal.main_arg4 (by decide))).trans (Cert.KernelIdeal.Hand.W5_main_arg4 m c),
      (h c _ (Cert.KernelIdeal.Hand.mem_uc Cert.KernelIdeal.main_arg5 (by decide))).trans (Cert.KernelIdeal.Hand.W5_main_arg5 m c),
      (h c _ (Cert.KernelIdeal.Hand.mem_uc Cert.KernelIdeal.main_arg6 (by decide))).trans (Cert.KernelIdeal.Hand.W5_main_arg6 m c)⟩)
    (Cert.KernelIdeal.Hand.run_all (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

end Cert.Proof.Frames

end
-- ==== Proof.HostChains.lean ====
/-
  The two stretches of host operations around the linear layers, each as ONE function of what it reads.
  Both are the normalised neighbour aggregation of a graph convolution: every row of the operand is scaled by
  (max(out-degree, 1))^(-1/2) of its node, the rows are gathered along the edges' sources (a negative source index wrapped by
  the number of nodes) and summed into the edges' destinations, and every row of the sum is scaled by
  (max(in-degree, 1))^(-1/2); a degree is a scatter-add of ones over the edge list. `agg256` reads the feature matrix,
  `agg128` the first layer's output.
-/
import proofs.«129852_j3504693313816_1_alg».proof.Proof.Gen.KernelIdeal
import Idealize.ShloMosaic.PureOps

set_option maxRecDepth 8192

noncomputable section

namespace Cert.KernelIdeal.Hand

open Idealize.ShloMosaic Cert.KernelIdeal Cert.KernelIdeal.Facts₀ Cert.KernelIdeal.Facts

variable {F : FTy → Type} [FloatOps F]

/-- The aggregation in front of the first linear layer, of the features `a0`, the sources `a1` and the destinations `a2`. -/
def agg256 (a0 : FVec F S8192x256 .f32) (a1 a2 : IVec S262144 32) : FVec F S8192x256 .f32 :=
  (mulf (Host.scatterAdd scatter_S8192x256_S262144x1_S262144x256_1_0_0_1 (broadcastInDim S8192x256 ![] bcast_S_S8192x256 (constant S_ .f32 0x00000000#32)) (broadcastInDim S262144x1 ![0] bcast_S262144_S262144x1_0 a2) (Host.gather gather_S8192x256_S262144x1_S262144x256_1_0_n_n_0_1_1256 (mulf a0 (broadcastInDim S8192x256 ![0, 1] bcast_S8192x1_S8192x256_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a1) (broadcastInDim S262144 ![] bcast_S_S262144 (constant S_ .f32 0x3F800000#32))) (broadcastInDim S8192 ![] bcast_S_S8192 (constant S_ .f32 0x3F800000#32))))))) (broadcastInDim S262144x1 ![0] bcast_S262144_S262144x1_0 (select (cmpi .slt a1 (broadcastInDim S262144 ![] bcast_S_S262144 (constantI S_ 32 0#32))) (addi a1 (broadcastInDim S262144 ![] bcast_S_S262144 (constantI S_ 32 8192#32))) a1)))) (broadcastInDim S8192x256 ![0, 1] bcast_S8192x1_S8192x256_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a2) (broadcastInDim S262144 ![] bcast_S_S262144 (constant S_ .f32 0x3F800000#32))) (broadcastInDim S8192 ![] bcast_S_S8192 (constant S_ .f32 0x3F800000#32)))))))

/-- The aggregation in front of the second linear layer, of the first layer's output `h1`, the sources and the destinations. -/
def agg128 (h1 : FVec F S8192x128 .f32) (a1 a2 : IVec S262144 32) : FVec F S8192x128 .f32 :=
  (mulf (Host.scatterAdd scatter_S8192x128_S262144x1_S262144x128_1_0_0_1 (broadcastInDim S8192x128 ![] bcast_S_S8192x128 (constant S_ .f32 0x00000000#32)) (broadcastInDim S262144x1 ![0] bcast_S262144_S262144x1_0 a2) (Host.gather gather_S8192x128_S262144x1_S262144x128_1_0_n_n_0_1_1128 (mulf h1 (broadcastInDim S8192x128 ![0, 1] bcast_S8192x1_S8192x128_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a1) (broadcastInDim S262144 ![] bcast_S_S262144 (constant S_ .f32 0x3F800000#32))) (broadcastInDim S8192 ![] bcast_S_S8192 (constant S_ .f32 0x3F800000#32))))))) (broadcastInDim S262144x1 ![0] bcast_S262144_S262144x1_0 (select (cmpi .slt a1 (broadcastInDim S262144 ![] bcast_S_S262144 (constantI S_ 32 0#32))) (addi a1 (broadcastInDim S262144 ![] bcast_S_S262144 (constantI S_ 32 8192#32))) a1)))) (broadcastInDim S8192x128 ![0, 1] bcast_S8192x1_S8192x128_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a2) (broadcastInDim S262144 ![] bcast_S_S262144 (constant S_ .f32 0x3F800000#32))) (broadcastInDim S8192 ![] bcast_S_S8192 (constant S_ .f32 0x3F800000#32)))))))

end Cert.KernelIdeal.Hand

end
-- ==== Proof.Spec.lean ====
/-
  What each kernel region leaves in its output array, as ONE function of the arrays it reads, index by index.
  A region walks the rows in blocks of 1024: the point with row-block number `r / 1024` computes row `r` of the
  output from rows `1024·(r/1024) … 1024·(r/1024)+1023` of its row operand and from the whole weight and bias
  operands; the decode region walks an 8 × 8 grid of (row block, column block) pairs and entry `(r, s)` is computed
  from row block `r / 1024` and row block `s / 1024` of the SAME array. Each function below is the body's stored value
  (the skeleton's payload) read at the position inside the block, of those blocks.
-/
import proofs.«129852_j3504693313816_1_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Rows `1024·bi … 1024·bi + 1023` of an 8192 × 256 array. -/
def rowBlk256 (X : Vec F S8192x256 .f32) (bi : Fin 8) : Vec F S1024x256 .f32 :=
  fun y => X (ix2 (n0 := 8192) (n1 := 256) ⟨bi.val * 1024 + (y 0).val, by have := idx2_lt0 y; omega⟩ ⟨(y 1).val, idx2_lt1 y⟩)

/-- Rows `1024·bi … 1024·bi + 1023` of an 8192 × 128 array. -/
def rowBlk128 (X : Vec F S8192x128 .f32) (bi : Fin 8) : Vec F S1024x128 .f32 :=
  fun y => X (ix2 (n0 := 8192) (n1 := 128) ⟨bi.val * 1024 + (y 0).val, by have := idx2_lt0 y; omega⟩ ⟨(y 1).val, idx2_lt1 y⟩)

/-- The first linear region: row `r` of the output from the row block of `X` that holds row `r`, the weights and the bias row. -/
def G0 (X : Vec F S8192x256 .f32) (W : Vec F S256x128 .f32) (b : Vec F S1x128 .f32) : Vec F S8192x128 .f32 :=
  fun i => k0_pay1 (rowBlk256 X ⟨(i 0).val / 1024, by have := idx2_lt0 i; omega⟩) W b
    (ix2 (n0 := 1024) (n1 := 128) ⟨(i 0).val % 1024, Nat.mod_lt _ (by decide)⟩ ⟨(i 1).val, idx2_lt1 i⟩)

/-- The second linear region, likewise. -/
def G1 (X : Vec F S8192x128 .f32) (W : Vec F S128x128 .f32) (b : Vec F S1x128 .f32) : Vec F S8192x128 .f32 :=
  fun i => k1_pay1 (rowBlk128 X ⟨(i 0).val / 1024, by have := idx2_lt0 i; omega⟩) W b
    (ix2 (n0 := 1024) (n1 := 128) ⟨(i 0).val % 1024, Nat.mod_lt _ (by decide)⟩ ⟨(i 1).val, idx2_lt1 i⟩)

/-- The decode region: entry `(r, s)` from row block `r / 1024` and row block `s / 1024` of the one array `H`. -/
def G2 (H : Vec F S8192x128 .f32) : Vec F S8192x8192 .f32 :=
  fun i => k2_pay1 (rowBlk128 H ⟨(i 0).val / 1024, by have := idx2_lt0 i; omega⟩) (rowBlk128 H ⟨(i 1).val / 1024, by have := idx2_lt1 i; omega⟩)
    (ix2 (n0 := 1024) (n1 := 1024) ⟨(i 0).val % 1024, Nat.mod_lt _ (by decide)⟩ ⟨(i 1).val % 1024, Nat.mod_lt _ (by decide)⟩)

end Cert.KernelIdeal.Hand

end
-- ==== Proof.Final.lean ====
/-
  From blocks to arrays. Each region's output array, after all its grid points have written their blocks back, is
  the specification's function of the arrays the region reads (`G0`, `G1`, `G2`). Per region: how the printed index
  maps of the input windows relate to the output window's, decided over the grid; what a grid point writes back is
  the block of the specification's function at that point (the body's stored value over the input blocks, each input
  block read as the rows of its array that the output block's row number names); an array index lies in a point's
  block iff each coordinate lies in the block's range; every index lies in some point's block (the point whose block
  number is the row number divided by 1024, and for the decode region also the column number divided by 1024); so the
  array is the function everywhere. A block's coordinate in the array is always block index × block size + the
  coordinate inside the block.
-/
import proofs.«129852_j3504693313816_1_alg».proof.Proof.Bodies
import proofs.«129852_j3504693313816_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]

variable (V : (c : Dev nD) → (b : Ref sig .tc) → Buf (Elt F) ((c : Thread nD τ).loc b))

/-- The zero offset of a whole-buffer rectangle. -/
theorem off_zero : (![0, 0] : Fin 2 → Nat) = fun _ => 0 := funext fun a => by fin_cases a <;> rfl

/-! ## The specification's functions at an index -/

theorem G0_apply (X : Vec F S8192x256 .f32) (W : Vec F S256x128 .f32) (b : Vec F S1x128 .f32) (i : S8192x128.Idx) :
    G0 X W b i = k0_pay1 (rowBlk256 X ⟨(i 0).val / 1024, by have := idx2_lt0 i; omega⟩) W b
      (ix2 (n0 := 1024) (n1 := 128) ⟨(i 0).val % 1024, Nat.mod_lt _ (by decide)⟩ ⟨(i 1).val, idx2_lt1 i⟩) := rfl

theorem G1_apply (X : Vec F S8192x128 .f32) (W : Vec F S128x128 .f32) (b : Vec F S1x128 .f32) (i : S8192x128.Idx) :
    G1 X W b i = k1_pay1 (rowBlk128 X ⟨(i 0).val / 1024, by have := idx2_lt0 i; omega⟩) W b
      (ix2 (n0 := 1024) (n1 := 128) ⟨(i 0).val % 1024, Nat.mod_lt _ (by decide)⟩ ⟨(i 1).val, idx2_lt1 i⟩) := rfl

theorem G2_apply (H : Vec F S8192x128 .f32) (i : S8192x8192.Idx) :
    G2 H i = k2_pay1 (rowBlk128 H ⟨(i 0).val / 1024, by have := idx2_lt0 i; omega⟩) (rowBlk128 H ⟨(i 1).val / 1024, by have := idx2_lt1 i; omega⟩)
      (ix2 (n0 := 1024) (n1 := 1024) ⟨(i 0).val % 1024, Nat.mod_lt _ (by decide)⟩ ⟨(i 1).val % 1024, Nat.mod_lt _ (by decide)⟩) := rfl

theorem rowBlk256_apply (X : Vec F S8192x256 .f32) (bi : Fin 8) (y : S1024x256.Idx) :
    rowBlk256 X bi y = X (ix2 (n0 := 8192) (n1 := 256) ⟨bi.val * 1024 + (y 0).val, by have := idx2_lt0 y; omega⟩ ⟨(y 1).val, idx2_lt1 y⟩) := rfl

theorem rowBlk128_apply (X : Vec F S8192x128 .f32) (bi : Fin 8) (y : S1024x128.Idx) :
    rowBlk128 X bi y = X (ix2 (n0 := 8192) (n1 := 128) ⟨bi.val * 1024 + (y 0).val, by have := idx2_lt0 y; omega⟩ ⟨(y 1).val, idx2_lt1 y⟩) := rfl

/-- Equal operands and equal positions give equal stored values. -/
theorem pay0_congr {x0 x0' : Vec F S1024x256 .f32} {x1 x1' : Vec F S256x128 .f32} {x2 x2' : Vec F S1x128 .f32} {j j' : S1024x128.Idx}
    (h0 : x0 = x0') (h1 : x1 = x1') (h2 : x2 = x2') (hj : j = j') : k0_pay1 x0 x1 x2 j = k0_pay1 x0' x1' x2' j' := by
  subst h0 h1 h2 hj; rfl
theorem pay1_congr {x0 x0' : Vec F S1024x128 .f32} {x1 x1' : Vec F S128x128 .f32} {x2 x2' : Vec F S1x128 .f32} {j j' : S1024x128.Idx}
    (h0 : x0 = x0') (h1 : x1 = x1') (h2 : x2 = x2') (hj : j = j') : k1_pay1 x0 x1 x2 j = k1_pay1 x0' x1' x2' j' := by
  subst h0 h1 h2 hj; rfl
theorem pay2_congr {x0 x0' : Vec F S1024x128 .f32} {x1 x1' : Vec F S1024x128 .f32} {j j' : S1024x1024.Idx}
    (h0 : x0 = x0') (h1 : x1 = x1') (hj : j = j') : k2_pay1 x0 x1 j = k2_pay1 x0' x1' j' := by
  subst h0 h1 hj; rfl

/-! # Region 0 -/

/-- The printed index maps over the grid: the row window moves with the output window along the rows, the weight and
    bias windows stay at block 0, and the output's row-block number is below 8. -/
theorem index_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every row block is some point's. -/
theorem index_onto0 : ∀ q0 : Fin 8, ∃ t : Fin cfg0.N, win0_3.index t = ![q0.val, 0] :=
  (by decide +kernel : ∀ q0 : Fin 8, ∃ t : Fin grid0.N, win0_3.index t = ![q0.val, 0])

/-- What point `t` writes back is its block of `G0` of the arrays as the region finds them. -/
theorem flushed0_eq (c : Dev nD) (t : Fin cfg0.N) :
    (dat0 V c).flushed 3 t = ((cfg0.win 3).blk t).view.read (Elt F) (G0 (V c main_v29) (V c main_arg3) (V c main_v30)) := by
  show (cfg0.win 3).cut (grid0.coords t) ((dat0 V c).after 3 t) = _
  rw [after0_3]
  unfold out0_3
  rw [View.canon_unit_zero off_zero]
  simp only [View.ld_unit_zero (S := S1024x256) off_zero, View.ld_unit_zero (S := S256x128) off_zero, View.ld_unit_zero (S := S1x128) off_zero]
  obtain ⟨e00, e01, e10, e11, e20, e21, hb, e31⟩ := index_facts0 t
  funext j
  have hj0 : (j 0).val < 1024 := (j 0).isLt
  have hj1 : (j 1).val < 128 := (j 1).isLt
  show k0_pay1 (iblk0 V c 0 t) (iblk0 V c 1 t) (iblk0 V c 2 t) j
    = G0 (V c main_v29) (V c main_arg3) (V c main_v30) (((cfg0.win 3).blk t).view.emb j)
  rw [G0_apply]
  refine pay0_congr ?_ ?_ ?_ ?_
  · -- the row window's block is the rows of the array that the output block's row number names
    funext y
    have hy0 : (y 0).val < 1024 := (y 0).isLt
    have hy1 : (y 1).val < 256 := (y 1).isLt
    rw [rowBlk256_apply]
    show V c main_v29 (((cfg0.win 0).blk t).view.emb y) = _
    refine congrArg _ ?_
    funext a; apply Fin.ext
    match a with
    | ⟨0, _⟩ => show win0_0.index t (0 : Fin 2) * 1024 + 1 * (y 0).val = (win0_3.index t (0 : Fin 2) * 1024 + 1 * (j 0).val) / 1024 * 1024 + (y 0).val; omega
    | ⟨1, _⟩ => show win0_0.index t (1 : Fin 2) * 256 + 1 * (y 1).val = (y 1).val; omega
  · -- the weight window's one block is the whole array
    funext y
    show V c main_arg3 (((cfg0.win 1).blk t).view.emb y) = V c main_arg3 y
    refine congrArg _ ?_
    funext a; apply Fin.ext
    match a with
    | ⟨0, _⟩ => show win0_1.index t (0 : Fin 2) * 256 + 1 * (y 0).val = (y 0).val; omega
    | ⟨1, _⟩ => show win0_1.index t (1 : Fin 2) * 128 + 1 * (y 1).val = (y 1).val; omega
  · -- the bias window's one block is the whole row
    funext y
    show V c main_v30 (((cfg0.win 2).blk t).view.emb y) = V c main_v30 y
    refine congrArg _ ?_
    funext a; apply Fin.ext
    match a with
    | ⟨0, _⟩ => show win0_2.index t (0 : Fin 2) * 1 + 1 * (y 0).val = (y 0).val; omega
    | ⟨1, _⟩ => show win0_2.index t (1 : Fin 2) * 128 + 1 * (y 1).val = (y 1).val; omega
  · -- the position inside the block is the array index's remainder
    funext a; apply Fin.ext
    match a with
    | ⟨0, _⟩ => show (j 0).val = (win0_3.index t (0 : Fin 2) * 1024 + 1 * (j 0).val) % 1024; omega
    | ⟨1, _⟩ => show (j 1).val = win0_3.index t (1 : Fin 2) * 128 + 1 * (j 1).val; omega

/-- An index of the array is in point `t`'s block iff each coordinate is in the block's range on its axis. -/
theorem mem_blk0 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v31).slice (win0_3.rect t)).set ↔ _
  rw [View.set_slice_whole, Rect.mem_set_unit]
  exact Iff.rfl

/-- Every index of the array is in the block of the point whose row-block number is the row number over 1024. -/
theorem cover0 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := index_onto0 ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 128 ≤ (i 1).val ∧ (i 1).val < win0_3.index t (1 : Fin 2) * 128 + 128; omega

/-- The output array after all the points is `G0` of the arrays the region reads. -/
theorem final0 (c : Dev nD) : (dat0 V c).arrAt 3 cfg0.N = G0 (V c main_v29) (V c main_arg3) (V c main_v30) :=
  (dat0 V c).arrAt_eq_of_cover 3 (G0 (V c main_v29) (V c main_arg3) (V c main_v30)) (fun t _ => flushed0_eq V c t) cover0

/-! # Region 1 -/

/-- The printed index maps over the grid: the row window moves with the output window along the rows, the weight and
    bias windows stay at block 0, and the output's row-block number is below 8. -/
theorem index_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 7 ∧ win1_3.index t (1 : Fin 2) = 0 :=
  (by decide +kernel : ∀ t : Fin grid1.N, _)

/-- Every row block is some point's. -/
theorem index_onto1 : ∀ q0 : Fin 8, ∃ t : Fin cfg1.N, win1_3.index t = ![q0.val, 0] :=
  (by decide +kernel : ∀ q0 : Fin 8, ∃ t : Fin grid1.N, win1_3.index t = ![q0.val, 0])

/-- What point `t` writes back is its block of `G1` of the arrays as the region finds them. -/
theorem flushed1_eq (c : Dev nD) (t : Fin cfg1.N) :
    (dat1 V c).flushed 3 t = ((cfg1.win 3).blk t).view.read (Elt F) (G1 (V c main_v47) (V c main_arg5) (V c main_v48)) := by
  show (cfg1.win 3).cut (grid1.coords t) ((dat1 V c).after 3 t) = _
  rw [after1_3]
  unfold out1_3
  rw [View.canon_unit_zero off_zero]
  simp only [View.ld_unit_zero (S := S1024x128) off_zero, View.ld_unit_zero (S := S128x128) off_zero, View.ld_unit_zero (S := S1x128) off_zero]
  obtain ⟨e00, e01, e10, e11, e20, e21, hb, e31⟩ := index_facts1 t
  funext j
  have hj0 : (j 0).val < 1024 := (j 0).isLt
  have hj1 : (j 1).val < 128 := (j 1).isLt
  show k1_pay1 (iblk1 V c 0 t) (iblk1 V c 1 t) (iblk1 V c 2 t) j
    = G1 (V c main_v47) (V c main_arg5) (V c main_v48) (((cfg1.win 3).blk t).view.emb j)
  rw [G1_apply]
  refine pay1_congr ?_ ?_ ?_ ?_
  · -- the row window's block is the rows of the array that the output block's row number names
    funext y
    have hy0 : (y 0).val < 1024 := (y 0).isLt
    have hy1 : (y 1).val < 128 := (y 1).isLt
    rw [rowBlk128_apply]
    show V c main_v47 (((cfg1.win 0).blk t).view.emb y) = _
    refine congrArg _ ?_
    funext a; apply Fin.ext
    match a with
    | ⟨0, _⟩ => show win1_0.index t (0 : Fin 2) * 1024 + 1 * (y 0).val = (win1_3.index t (0 : Fin 2) * 1024 + 1 * (j 0).val) / 1024 * 1024 + (y 0).val; omega
    | ⟨1, _⟩ => show win1_0.index t (1 : Fin 2) * 128 + 1 * (y 1).val = (y 1).val; omega
  · -- the weight window's one block is the whole array
    funext y
    show V c main_arg5 (((cfg1.win 1).blk t).view.emb y) = V c main_arg5 y
    refine congrArg _ ?_
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  · -- the bias window's one block is the whole row
    funext y
    show V c main_v48 (((cfg1.win 2).blk t).view.emb y) = V c main_v48 y
    refine congrArg _ ?_
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · -- the position inside the block is the array index's remainder
    funext a; apply Fin.ext
    match a with
    | ⟨0, _⟩ => show (j 0).val = (win1_3.index t (0 : Fin 2) * 1024 + 1 * (j 0).val) % 1024; omega
    | ⟨1, _⟩ => show (j 1).val = win1_3.index t (1 : Fin 2) * 128 + 1 * (j 1).val; omega

/-- An index of the array is in point `t`'s block iff each coordinate is in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v49).slice (win1_3.rect t)).set ↔ _
  rw [View.set_slice_whole, Rect.mem_set_unit]
  exact Iff.rfl

/-- Every index of the array is in the block of the point whose row-block number is the row number over 1024. -/
theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ := index_onto1 ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

/-- The output array after all the points is `G1` of the arrays the region reads. -/
theorem final1 (c : Dev nD) : (dat1 V c).arrAt 3 cfg1.N = G1 (V c main_v47) (V c main_arg5) (V c main_v48) :=
  (dat1 V c).arrAt_eq_of_cover 3 (G1 (V c main_v47) (V c main_arg5) (V c main_v48)) (fun t _ => flushed1_eq V c t) cover1

/-! # Region 2 -/

/-- The printed index maps over the grid: the first input window moves with the output window's rows, the second with
    its columns, both over the rows of the one array; the output's block numbers are below 8. -/
theorem index_facts2 : ∀ t : Fin cfg2.N, win2_0.index t (0 : Fin 2) = win2_2.index t (0 : Fin 2)
    ∧ win2_0.index t (1 : Fin 2) = 0
    ∧ win2_1.index t (0 : Fin 2) = win2_2.index t (1 : Fin 2) ∧ win2_1.index t (1 : Fin 2) = 0
    ∧ win2_2.index t (0 : Fin 2) ≤ 7 ∧ win2_2.index t (1 : Fin 2) ≤ 7 :=
  (by decide +kernel : ∀ t : Fin grid2.N, _)

/-- Every (row block, column block) pair is some point's. -/
theorem index_onto2 : ∀ q0 q1 : Fin 8, ∃ t : Fin cfg2.N, win2_2.index t = ![q0.val, q1.val] :=
  (by decide +kernel : ∀ q0 q1 : Fin 8, ∃ t : Fin grid2.N, win2_2.index t = ![q0.val, q1.val])

/-- What point `t` writes back is its block of `G2` of the array as the region finds it. -/
theorem flushed2_eq (c : Dev nD) (t : Fin cfg2.N) :
    (dat2 V c).flushed 2 t = ((cfg2.win 2).blk t).view.read (Elt F) (G2 (V c main_v49)) := by
  show (cfg2.win 2).cut (grid2.coords t) ((dat2 V c).after 2 t) = _
  rw [after2_2]
  unfold out2_2
  rw [View.canon_unit_zero off_zero]
  simp only [View.ld_unit_zero (S := S1024x128) off_zero]
  obtain ⟨e00, e01, e10, e11, hb0, hb1⟩ := index_facts2 t
  funext j
  have hj0 : (j 0).val < 1024 := (j 0).isLt
  have hj1 : (j 1).val < 1024 := (j 1).isLt
  show k2_pay1 (iblk2 V c 0 t) (iblk2 V c 1 t) j = G2 (V c main_v49) (((cfg2.win 2).blk t).view.emb j)
  rw [G2_apply]
  refine pay2_congr ?_ ?_ ?_
  · -- the first window's block is the rows of the array that the output block's row number names
    funext y
    have hy0 : (y 0).val < 1024 := (y 0).isLt
    have hy1 : (y 1).val < 128 := (y 1).isLt
    rw [rowBlk128_apply]
    show V c main_v49 (((cfg2.win 0).blk t).view.emb y) = _
    refine congrArg _ ?_
    funext a; apply Fin.ext
    match a with
    | ⟨0, _⟩ => show win2_0.index t (0 : Fin 2) * 1024 + 1 * (y 0).val = (win2_2.index t (0 : Fin 2) * 1024 + 1 * (j 0).val) / 1024 * 1024 + (y 0).val; omega
    | ⟨1, _⟩ => show win2_0.index t (1 : Fin 2) * 128 + 1 * (y 1).val = (y 1).val; omega
  · -- the second window's block is the rows of the array that the output block's column number names
    funext y
    have hy0 : (y 0).val < 1024 := (y 0).isLt
    have hy1 : (y 1).val < 128 := (y 1).isLt
    rw [rowBlk128_apply]
    show V c main_v49 (((cfg2.win 1).blk t).view.emb y) = _
    refine congrArg _ ?_
    funext a; apply Fin.ext
    match a with
    | ⟨0, _⟩ => show win2_1.index t (0 : Fin 2) * 1024 + 1 * (y 0).val = (win2_2.index t (1 : Fin 2) * 1024 + 1 * (j 1).val) / 1024 * 1024 + (y 0).val; omega
    | ⟨1, _⟩ => show win2_1.index t (1 : Fin 2) * 128 + 1 * (y 1).val = (y 1).val; omega
  · -- the position inside the block is the array index's remainders
    funext a; apply Fin.ext
    match a with
    | ⟨0, _⟩ => show (j 0).val = (win2_2.index t (0 : Fin 2) * 1024 + 1 * (j 0).val) % 1024; omega
    | ⟨1, _⟩ => show (j 1).val = (win2_2.index t (1 : Fin 2) * 1024 + 1 * (j 1).val) % 1024; omega

/-- An index of the array is in point `t`'s block iff each coordinate is in the block's range on its axis. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v50).slice (win2_2.rect t)).set ↔ _
  rw [View.set_slice_whole, Rect.mem_set_unit]
  exact Iff.rfl

/-- Every index of the array is in the block of the point whose block numbers are the row and column numbers over 1024. -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := index_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after all the points is `G2` of the array the region reads. -/
theorem final2 (c : Dev nD) : (dat2 V c).arrAt 2 cfg2.N = G2 (V c main_v49) :=
  (dat2 V c).arrAt_eq_of_cover 2 (G2 (V c main_v49)) (fun t _ => flushed2_eq V c t) cover2

end Cert.KernelIdeal.Hand

end
-- ==== Proof.HostRead.lean ====
/-
  The kernel program's result as one function of its arguments. Each region's operand arrays are read off the valuation
  the region is entered at: a row operand is the fold of the stretch of host operations before the region, which is the
  normalised neighbour aggregation as one term; a bias operand is the bias vector read as one row; a weight operand is
  an argument no operation writes. The regions' output arrays are the specification's functions of those operands, and
  chaining the three gives the result array.
-/
import proofs.«129852_j3504693313816_1_alg».proof.Proof.RunAll
import proofs.«129852_j3504693313816_1_alg».proof.Proof.HostChains
import proofs.«129852_j3504693313816_1_alg».proof.Proof.Final
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-! ## What the regions' operand arrays hold when the regions are entered

Each is read off the fold of the stretch of host operations before the region; a buffer no operation of a stretch
writes, and no write-back of a region touches, holds what it held before. -/

/-- The first linear region's row operand is the aggregation of the feature matrix along the edge list. -/
theorem read_v29 (c : Dev nD) :
    V1 m c main_v29 = agg256 (m ((c : Thread nD τ).loc main_arg0)) (m ((c : Thread nD τ).loc main_arg1)) (m ((c : Thread nD τ).loc main_arg2)) := by
  show StableHlo.after hostOps0 (W0 m c) (Proc.devRef .tc main_v29) = _
  dsimp only [hostOps0]
  after_results_simp
  rfl

/-- Its bias operand is the bias vector read as one row. -/
theorem read_v30 (c : Dev nD) :
    V1 m c main_v30 = shapeCast S1x128 (m ((c : Thread nD τ).loc main_arg4)) shapeCasts_S128_S1x128 := by
  show StableHlo.after hostOps0 (W0 m c) (Proc.devRef .tc main_v30) = _
  dsimp only [hostOps0]
  after_results_simp
  rfl

/-- Its weight operand is the weight argument: no host operation writes it. -/
theorem read_arg3 (c : Dev nD) : V1 m c main_arg3 = m ((c : Thread nD τ).loc main_arg3) :=
  StableHlo.after_of_writes_sub hostOps0 _ hostOps0_writes (r := main_arg3) (by decide)

/-- The first degree norm, (max(out-degree, 1))^(-1/2) per node, as the first stretch leaves it. -/
theorem W1_v6 (c : Dev nD) : W1 m c (Proc.devRef .tc main_v6)
    = Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 (m ((c : Thread nD τ).loc main_arg1))) (broadcastInDim S262144 ![] bcast_S_S262144 (constant S_ .f32 0x3F800000#32))) (broadcastInDim S8192 ![] bcast_S_S8192 (constant S_ .f32 0x3F800000#32))) := by
  show StableHlo.after hostOps0 (W0 m c) (Proc.devRef .tc main_v6) = _
  dsimp only [hostOps0]
  after_results_simp

/-- The second degree norm, (max(in-degree, 1))^(-1/2) per node, as the first stretch leaves it. -/
theorem W1_v13 (c : Dev nD) : W1 m c (Proc.devRef .tc main_v13)
    = Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 (m ((c : Thread nD τ).loc main_arg2))) (broadcastInDim S262144 ![] bcast_S_S262144 (constant S_ .f32 0x3F800000#32))) (broadcastInDim S8192 ![] bcast_S_S8192 (constant S_ .f32 0x3F800000#32))) := by
  show StableHlo.after hostOps0 (W0 m c) (Proc.devRef .tc main_v13) = _
  dsimp only [hostOps0]
  after_results_simp

/-- After the first region the degree norms and the edge lists are as the first stretch left them: they are no array of the region. -/
theorem W2_v6 (c : Dev nD) : W2 m c (Proc.devRef .tc main_v6) = W1 m c (Proc.devRef .tc main_v6) := W2_of_ne m c main_v6 (by decide)
theorem W2_v13 (c : Dev nD) : W2 m c (Proc.devRef .tc main_v13) = W1 m c (Proc.devRef .tc main_v13) := W2_of_ne m c main_v13 (by decide)
theorem W2_arg1 (c : Dev nD) : W2 m c (Proc.devRef .tc main_arg1) = m ((c : Thread nD τ).loc main_arg1) :=
  (W2_of_ne m c main_arg1 (by decide)).trans (StableHlo.after_of_writes_sub hostOps0 _ hostOps0_writes (r := main_arg1) (by decide))
theorem W2_arg2 (c : Dev nD) : W2 m c (Proc.devRef .tc main_arg2) = m ((c : Thread nD τ).loc main_arg2) :=
  (W2_of_ne m c main_arg2 (by decide)).trans (StableHlo.after_of_writes_sub hostOps0 _ hostOps0_writes (r := main_arg2) (by decide))
theorem W2_arg5 (c : Dev nD) : W2 m c (Proc.devRef .tc main_arg5) = m ((c : Thread nD τ).loc main_arg5) :=
  (W2_of_ne m c main_arg5 (by decide)).trans (StableHlo.after_of_writes_sub hostOps0 _ hostOps0_writes (r := main_arg5) (by decide))
theorem W2_arg6 (c : Dev nD) : W2 m c (Proc.devRef .tc main_arg6) = m ((c : Thread nD τ).loc main_arg6) :=
  (W2_of_ne m c main_arg6 (by decide)).trans (StableHlo.after_of_writes_sub hostOps0 _ hostOps0_writes (r := main_arg6) (by decide))

/-- The second linear region's row operand is the aggregation of the first region's output along the edge list. -/
theorem read_v47 (c : Dev nD) :
    V3 m c main_v47 = agg128 (W2 m c (Proc.devRef .tc main_v31)) (m ((c : Thread nD τ).loc main_arg1)) (m ((c : Thread nD τ).loc main_arg2)) := by
  show StableHlo.after hostOps1 (W2 m c) (Proc.devRef .tc main_v47) = _
  dsimp only [hostOps1]
  after_results_simp
  rw [W2_v6, W2_v13, W2_arg1, W2_arg2, W1_v6, W1_v13]
  rfl

/-- Its bias operand is the second bias vector read as one row. -/
theorem read_v48 (c : Dev nD) :
    V3 m c main_v48 = shapeCast S1x128 (m ((c : Thread nD τ).loc main_arg6)) shapeCasts_S128_S1x128 := by
  show StableHlo.after hostOps1 (W2 m c) (Proc.devRef .tc main_v48) = _
  dsimp only [hostOps1]
  after_results_simp
  rw [W2_arg6]
  rfl

/-- Its weight operand is the second weight argument. -/
theorem read_arg5 (c : Dev nD) : V3 m c main_arg5 = m ((c : Thread nD τ).loc main_arg5) :=
  (StableHlo.after_of_writes_sub hostOps1 _ hostOps1_writes (r := main_arg5) (by decide)).trans (W2_arg5 m c)

/-! ## The result array -/

/-- The result array after the whole run: the decode of the second linear layer of the aggregation of the first linear
    layer of the aggregation of the features. -/
theorem kernel_result (c : Dev nD) :
    W5 m c (Proc.devRef .tc main_v50)
      = G2 (G1 (agg128 (G0 (agg256 (m ((c : Thread nD τ).loc main_arg0)) (m ((c : Thread nD τ).loc main_arg1)) (m ((c : Thread nD τ).loc main_arg2)))
                  (m ((c : Thread nD τ).loc main_arg3)) (shapeCast S1x128 (m ((c : Thread nD τ).loc main_arg4)) shapeCasts_S128_S1x128))
              (m ((c : Thread nD τ).loc main_arg1)) (m ((c : Thread nD τ).loc main_arg2)))
            (m ((c : Thread nD τ).loc main_arg5)) (shapeCast S1x128 (m ((c : Thread nD τ).loc main_arg6)) shapeCasts_S128_S1x128)) := by
  have h0 : W2 m c (Proc.devRef .tc main_v31)
      = G0 (agg256 (m ((c : Thread nD τ).loc main_arg0)) (m ((c : Thread nD τ).loc main_arg1)) (m ((c : Thread nD τ).loc main_arg2)))
          (m ((c : Thread nD τ).loc main_arg3)) (shapeCast S1x128 (m ((c : Thread nD τ).loc main_arg4)) shapeCasts_S128_S1x128) := by
    rw [← read_v29 m c, ← read_arg3 m c, ← read_v30 m c]
    exact (W2_arr m c 3).trans (final0 (V1 m) c)
  have h1 : W4 m c (Proc.devRef .tc main_v49)
      = G1 (agg128 (W2 m c (Proc.devRef .tc main_v31)) (m ((c : Thread nD τ).loc main_arg1)) (m ((c : Thread nD τ).loc main_arg2)))
          (m ((c : Thread nD τ).loc main_arg5)) (shapeCast S1x128 (m ((c : Thread nD τ).loc main_arg6)) shapeCasts_S128_S1x128) := by
    rw [← read_v47 m c, ← read_arg5 m c, ← read_v48 m c]
    exact (W4_arr m c 3).trans (final1 (V3 m) c)
  rw [← h0, ← h1]
  exact (W5_result m c).trans (final2 (V4 m) c)

end Cert.KernelIdeal.Hand

end
-- ==== Proof.PayIdx.lean ====
/-
  The three regions' stored values read at one position of their block.  Each body multiplies its row block by a
  second operand into a zero accumulator; at the extended reals nothing rounds and the narrowing to the 16-bit
  format is the identity, so entry `(p, q)` of the product is the plain sum over the contraction coordinate of the
  products of the operands' entries.  The linear bodies add the bias row (a `[1,128]` array read at `(0, q)`,
  whatever the row `p`), the first of them then takes the maximum with zero; the decode body contracts two row
  blocks against each other (the second one transposed: its entry `(k, q)` is the block's entry `(q, k)`) and
  applies the logistic function.
-/
import proofs.«129852_j3504693313816_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The `[1024,256] × [256,128]` product into a zero accumulator, at `(p, q)`: the sum over the contraction
    coordinate `k` of row `p` of the left operand times column `q` of the right. -/
theorem matmul0_apply (l : FVec Ideal S1024x256 .bf16) (r : FVec Ideal S256x128 .bf16) (p : Fin 1024) (q : Fin 128) :
    matmul dot_S1024x256_S256x128_S1024x128_1_0_0_1_n_n none l r (constant (F := Ideal) S1024x128 .f32 0x00000000#32) (ix2 p q)
      = ∑ k : Fin 256, l (ix2 p k) * r (ix2 k q) := by
  simp only [matmul]
  rw [Ideal.matmul_constant_zero_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ =>
      show (dot_S1024x256_S256x128_S1024x128_1_0_0_1_n_n.lhsIdx (ix2 p q) _ 0).val = p.val
      unfold DotDims.lhsIdx
      rw [dif_neg (show ¬(0 : Fin S1024x256.rank) ∈ dot_S1024x256_S256x128_S1024x128_1_0_0_1_n_n.lhsBatch by decide), dif_pos (show (0 : Fin S1024x256.rank) ∈ dot_S1024x256_S256x128_S1024x128_1_0_0_1_n_n.lhsNonContracting by decide)]
      rfl
    | ⟨1, _⟩ => exact (dot_S1024x256_S256x128_S1024x128_1_0_0_1_n_n.lhsIdx_val_of_single rfl _ _).trans hk)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (dot_S1024x256_S256x128_S1024x128_1_0_0_1_n_n.rhsIdx_val_of_single rfl _ _).trans hk
    | ⟨1, _⟩ =>
      show (dot_S1024x256_S256x128_S1024x128_1_0_0_1_n_n.rhsIdx (ix2 p q) _ 1).val = q.val
      unfold DotDims.rhsIdx
      rw [dif_neg (show ¬(1 : Fin S256x128.rank) ∈ dot_S1024x256_S256x128_S1024x128_1_0_0_1_n_n.rhsBatch by decide), dif_pos (show (1 : Fin S256x128.rank) ∈ dot_S1024x256_S256x128_S1024x128_1_0_0_1_n_n.rhsNonContracting by decide)]
      rfl)
  rw [el, er]

/-- The `[1024,128] × [128,128]` product into a zero accumulator, at `(p, q)`: the sum over the contraction
    coordinate `k` of row `p` of the left operand times column `q` of the right. -/
theorem matmul1_apply (l : FVec Ideal S1024x128 .bf16) (r : FVec Ideal S128x128 .bf16) (p : Fin 1024) (q : Fin 128) :
    matmul dot_S1024x128_S128x128_S1024x128_1_0_0_1_n_n none l r (constant (F := Ideal) S1024x128 .f32 0x00000000#32) (ix2 p q)
      = ∑ k : Fin 128, l (ix2 p k) * r (ix2 k q) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ =>
      show (dot_S1024x128_S128x128_S1024x128_1_0_0_1_n_n.lhsIdx (ix2 p q) _ 0).val = p.val
      unfold DotDims.lhsIdx
      rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
      rfl
    | ⟨1, _⟩ => exact (dot_S1024x128_S128x128_S1024x128_1_0_0_1_n_n.lhsIdx_val_of_single rfl _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (dot_S1024x128_S128x128_S1024x128_1_0_0_1_n_n.rhsIdx_val_of_single rfl _ _).trans hk
    | ⟨1, _⟩ =>
      show (dot_S1024x128_S128x128_S1024x128_1_0_0_1_n_n.rhsIdx (ix2 p q) _ 1).val = q.val
      unfold DotDims.rhsIdx
      rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
      rfl)
  rw [el, er]

/-- The `[1024,128] × [128,1024]` product into a zero accumulator, at `(p, q)`: the sum over the contraction
    coordinate `k` of row `p` of the left operand times column `q` of the right. -/
theorem matmul2_apply (l : FVec Ideal S1024x128 .bf16) (r : FVec Ideal S128x1024 .bf16) (p : Fin 1024) (q : Fin 1024) :
    matmul dot_S1024x128_S128x1024_S1024x1024_1_0_0_1_n_n none l r (constant (F := Ideal) S1024x1024 .f32 0x00000000#32) (ix2 p q)
      = ∑ k : Fin 128, l (ix2 p k) * r (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ =>
      show (dot_S1024x128_S128x1024_S1024x1024_1_0_0_1_n_n.lhsIdx (ix2 p q) _ 0).val = p.val
      unfold DotDims.lhsIdx
      rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
      rfl
    | ⟨1, _⟩ => exact (dot_S1024x128_S128x1024_S1024x1024_1_0_0_1_n_n.lhsIdx_val_of_single rfl _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (dot_S1024x128_S128x1024_S1024x1024_1_0_0_1_n_n.rhsIdx_val_of_single rfl _ _).trans hk
    | ⟨1, _⟩ =>
      show (dot_S1024x128_S128x1024_S1024x1024_1_0_0_1_n_n.rhsIdx (ix2 p q) _ 1).val = q.val
      unfold DotDims.rhsIdx
      rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
      rfl)
  rw [el, er]

/-- The bias row broadcast over the 1024 rows of a block, at `(p, q)`: the row's entry `q`. -/
theorem biasRow_apply (v6 : Vec Ideal S1x128 .f32) (p : Fin 1024) (q : Fin 128) :
    broadcastTo S1024x128 (shapeCast S1x128 v6 shapeCasts_S1x128_S1x128) broadcasts_S1x128_S1024x128 (ix2 p q)
      = v6 (ix2 (0 : Fin 1) q) := by
  rw [shapeCast_self]
  exact broadcastTo_1b_ab_apply v6 broadcasts_S1x128_S1024x128 p q

/-- The first linear region's stored value at `(p, q)`: row `p` of the block times column `q` of the weights, plus
    the bias entry `q`, cut off below at zero. -/
theorem k0_pay1_apply (v0 : Vec Ideal S1024x256 .f32) (v3 : Vec Ideal S256x128 .f32) (v6 : Vec Ideal S1x128 .f32)
    (p : Fin 1024) (q : Fin 128) :
    k0_pay1 (F := Ideal) v0 v3 v6 (ix2 p q)
      = max ((∑ k : Fin 256, v0 (ix2 p k) * v3 (ix2 k q)) + v6 (ix2 (0 : Fin 1) q)) (0 : EReal) := by
  unfold k0_pay1
  rw [maximumf_apply, addf_apply, matmul0_apply, biasRow_apply, shapeCast_self]
  show max _ (Ideal.ofBits .f32 0x00000000#32) = _
  rw [Ideal.ofBits_zero_f32]
  rfl

/-- The second linear region's stored value at `(p, q)`: the same without the cut-off. -/
theorem k1_pay1_apply (v0 : Vec Ideal S1024x128 .f32) (v3 : Vec Ideal S128x128 .f32) (v6 : Vec Ideal S1x128 .f32)
    (p : Fin 1024) (q : Fin 128) :
    k1_pay1 (F := Ideal) v0 v3 v6 (ix2 p q)
      = (∑ k : Fin 128, v0 (ix2 p k) * v3 (ix2 k q)) + v6 (ix2 (0 : Fin 1) q) := by
  unfold k1_pay1
  rw [addf_apply, matmul1_apply, biasRow_apply, shapeCast_self]
  rfl

/-- The decode region's stored value at `(p, q)`: the logistic function of row `p` of the first block against
    row `q` of the second. -/
theorem k2_pay1_apply (v0 v3 : Vec Ideal S1024x128 .f32) (p q : Fin 1024) :
    k2_pay1 (F := Ideal) v0 v3 (ix2 p q) = Ideal.logistic (∑ k : Fin 128, v0 (ix2 p k) * v3 (ix2 q k)) := by
  unfold k2_pay1
  show Ideal.logistic (matmul (F := Ideal) dot_S1024x128_S128x1024_S1024x1024_1_0_0_1_n_n none _ _ _ (ix2 p q)) = _
  rw [matmul2_apply, shapeCast_self, shapeCast_self]
  refine congrArg Ideal.logistic (Finset.sum_congr rfl fun k _ => ?_)
  rw [transpose_ix2_apply]
  rfl

end Cert.KernelIdeal.Hand

end
-- ==== Proof.RefSide.lean ====
/-
  The reference's three dense stages (two linear layers and the dot-product decoder), each as the
  specification function of its operands, index by index.  Entry `(r, c)` of a linear stage is the sum over `k` of
  `X (r, k) · W (k, c)` plus the bias entry `c`; the specification computes the same entry from the row block that
  holds row `r`, at row `r % 1024` of that block, and `1024 · (r / 1024) + r % 1024 = r`, so the two sums have the
  same terms.  The decoder's entry `(r, s)` is the logistic function, spelt as `1 / (1 + exp (-x))`, of row `r`
  against row `s` of one array; the specification reads those two rows from their row blocks.  No law beyond the
  equality of the terms is used, so nothing here asks the entries to be finite.
-/
import proofs.«129852_j3504693313816_1_alg».proof.Proof.Gen.ReferenceIdeal.Run
import proofs.«129852_j3504693313816_1_alg».proof.Proof.Spec
import proofs.«129852_j3504693313816_1_alg».proof.Proof.PayIdx
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.KernelIdeal.Hand

/-! ## The row of an array inside its row block -/

/-- Row `r % 1024` of row block `r / 1024` of an 8192 × 256 array is row `r` of the array. -/
theorem rowBlk256_row (X : Vec Ideal Cert.KernelIdeal.S8192x256 .f32) (r : Fin 8192) (k : Fin 256)
    (h1 : r.val / 1024 < 8) (h2 : r.val % 1024 < 1024) :
    rowBlk256 X ⟨r.val / 1024, h1⟩ (ix2 ⟨r.val % 1024, h2⟩ k) = X (ix2 r k) := by
  unfold rowBlk256
  refine congrArg X (funext fun a => Fin.ext ?_)
  match a with
  | ⟨0, _⟩ => show r.val / 1024 * 1024 + r.val % 1024 = r.val; omega
  | ⟨1, _⟩ => rfl

/-- Row `r % 1024` of row block `r / 1024` of an 8192 × 128 array is row `r` of the array. -/
theorem rowBlk128_row (X : Vec Ideal Cert.KernelIdeal.S8192x128 .f32) (r : Fin 8192) (k : Fin 128)
    (h1 : r.val / 1024 < 8) (h2 : r.val % 1024 < 1024) :
    rowBlk128 X ⟨r.val / 1024, h1⟩ (ix2 ⟨r.val % 1024, h2⟩ k) = X (ix2 r k) := by
  unfold rowBlk128
  refine congrArg X (funext fun a => Fin.ext ?_)
  match a with
  | ⟨0, _⟩ => show r.val / 1024 * 1024 + r.val % 1024 = r.val; omega
  | ⟨1, _⟩ => rfl

/-! ## The reference's contractions and broadcasts at an index -/

/-- The reference's `[8192,256] × [256,128]` contraction at `(p, q)`: the sum over the contraction coordinate `k`
    of row `p` of the left operand times column `q` of the right. -/
theorem dot0_apply (l : FVec Ideal S8192x256 .f32) (r : FVec Ideal S256x128 .f32) (p : Fin 8192) (q : Fin 128) :
    Host.dotGeneral (F := Ideal) dot_S8192x256_S256x128_S8192x128_1_0_0_1_n_n none l r (ix2 p q) = ∑ k : Fin 256, l (ix2 p k) * r (ix2 k q) := by
  simp only [Host.dotGeneral]
  rw [Ideal.dotGeneral_apply, ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 p q) ((contrEquiv1 dot_S8192x256_S256x128_S8192x128_1_0_0_1_n_n 256 rfl rfl).symm k) = ix2 p k := funext fun a => Fin.ext (by
    match a with
    | ⟨0, _⟩ =>
      show (dot_S8192x256_S256x128_S8192x128_1_0_0_1_n_n.lhsIdx (ix2 p q) _ 0).val = p.val
      unfold DotDims.lhsIdx
      rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
      rfl
    | ⟨1, _⟩ => exact (dot_S8192x256_S256x128_S8192x128_1_0_0_1_n_n.lhsIdx_val_of_single rfl _ _).trans hk)
  have er : dot_S8192x256_S256x128_S8192x128_1_0_0_1_n_n.rhsIdx (ix2 p q) ((contrEquiv1 dot_S8192x256_S256x128_S8192x128_1_0_0_1_n_n 256 rfl rfl).symm k) = ix2 k q := funext fun a => Fin.ext (by
    match a with
    | ⟨0, _⟩ => exact (dot_S8192x256_S256x128_S8192x128_1_0_0_1_n_n.rhsIdx_val_of_single rfl _ _).trans hk
    | ⟨1, _⟩ =>
      show (dot_S8192x256_S256x128_S8192x128_1_0_0_1_n_n.rhsIdx (ix2 p q) _ 1).val = q.val
      unfold DotDims.rhsIdx
      rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
      rfl)
  rw [el, er]

/-- The reference's `[8192,128] × [128,128]` contraction at `(p, q)`: the sum over the contraction coordinate `k`
    of row `p` of the left operand times column `q` of the right. -/
theorem dot1_apply (l : FVec Ideal S8192x128 .f32) (r : FVec Ideal S128x128 .f32) (p : Fin 8192) (q : Fin 128) :
    Host.dotGeneral (F := Ideal) dot_S8192x128_S128x128_S8192x128_1_0_0_1_n_n none l r (ix2 p q) = ∑ k : Fin 128, l (ix2 p k) * r (ix2 k q) := by
  simp only [Host.dotGeneral]
  rw [Ideal.dotGeneral_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ =>
      show (dot_S8192x128_S128x128_S8192x128_1_0_0_1_n_n.lhsIdx (ix2 p q) _ 0).val = p.val
      unfold DotDims.lhsIdx
      rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
      rfl
    | ⟨1, _⟩ => exact (dot_S8192x128_S128x128_S8192x128_1_0_0_1_n_n.lhsIdx_val_of_single rfl _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (dot_S8192x128_S128x128_S8192x128_1_0_0_1_n_n.rhsIdx_val_of_single rfl _ _).trans hk
    | ⟨1, _⟩ =>
      show (dot_S8192x128_S128x128_S8192x128_1_0_0_1_n_n.rhsIdx (ix2 p q) _ 1).val = q.val
      unfold DotDims.rhsIdx
      rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
      rfl)
  rw [el, er]

/-- The reference's `[8192,128] × [128,8192]` contraction at `(p, q)`: the sum over the contraction coordinate `k`
    of row `p` of the left operand times column `q` of the right. -/
theorem dot2_apply (l : FVec Ideal S8192x128 .f32) (r : FVec Ideal S128x8192 .f32) (p : Fin 8192) (q : Fin 8192) :
    Host.dotGeneral (F := Ideal) dot_S8192x128_S128x8192_S8192x8192_1_0_0_1_n_n none l r (ix2 p q) = ∑ k : Fin 128, l (ix2 p k) * r (ix2 k q) := by
  simp only [Host.dotGeneral]
  rw [Ideal.dotGeneral_apply, ← Equiv.sum_comp (contrEquiv1 dot_S8192x128_S128x8192_S8192x8192_1_0_0_1_n_n 128 rfl rfl).symm]
  refine Finset.sum_congr rfl fun k _ => ?_
  have hk := contrEquiv1_symm_val dot_S8192x128_S128x8192_S8192x8192_1_0_0_1_n_n 128 rfl rfl k
  have el : dot_S8192x128_S128x8192_S8192x8192_1_0_0_1_n_n.lhsIdx (ix2 p q) ((contrEquiv1 dot_S8192x128_S128x8192_S8192x8192_1_0_0_1_n_n 128 rfl rfl).symm k) = ix2 p k := funext fun a => Fin.ext (by
    match a with
    | ⟨0, _⟩ =>
      show (dot_S8192x128_S128x8192_S8192x8192_1_0_0_1_n_n.lhsIdx (ix2 p q) _ 0).val = p.val
      unfold DotDims.lhsIdx
      rw [dif_neg (show ¬(0 : Fin S8192x128.rank) ∈ dot_S8192x128_S128x8192_S8192x8192_1_0_0_1_n_n.lhsBatch by decide), dif_pos (show (0 : Fin S8192x128.rank) ∈ dot_S8192x128_S128x8192_S8192x8192_1_0_0_1_n_n.lhsNonContracting by decide)]
      rfl
    | ⟨1, _⟩ => exact (dot_S8192x128_S128x8192_S8192x8192_1_0_0_1_n_n.lhsIdx_val_of_single rfl _ _).trans hk)
  have er : dot_S8192x128_S128x8192_S8192x8192_1_0_0_1_n_n.rhsIdx (ix2 p q) ((contrEquiv1 dot_S8192x128_S128x8192_S8192x8192_1_0_0_1_n_n 128 rfl rfl).symm k) = ix2 k q := funext fun a => Fin.ext (by
    match a with
    | ⟨0, _⟩ => exact (dot_S8192x128_S128x8192_S8192x8192_1_0_0_1_n_n.rhsIdx_val_of_single rfl _ _).trans hk
    | ⟨1, _⟩ =>
      show (dot_S8192x128_S128x8192_S8192x8192_1_0_0_1_n_n.rhsIdx (ix2 p q) _ 1).val = q.val
      unfold DotDims.rhsIdx
      rw [dif_neg (show ¬(1 : Fin S128x8192.rank) ∈ dot_S8192x128_S128x8192_S8192x8192_1_0_0_1_n_n.rhsBatch by decide), dif_pos (show (1 : Fin S128x8192.rank) ∈ dot_S8192x128_S128x8192_S8192x8192_1_0_0_1_n_n.rhsNonContracting by decide)]
      rfl)
  rw [el, er]

/-- The bias, a 128-vector broadcast to one row and then over the 8192 rows, at `(r, c)`: its entry `c`. -/
theorem bias_apply (b : FVec Ideal S128 .f32) (r : Fin 8192) (c : Fin 128) :
    broadcastInDim S8192x128 ![0, 1] bcast_S1x128_S8192x128_0_1 (broadcastInDim S1x128 ![1] bcast_S128_S1x128_1 b) (ix2 r c)
      = b (ix1 c) := by
  refine (broadcastInDim_apply _ bcast_S1x128_S8192x128_0_1 _ (ix2 r c) (ix2 (0 : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans ?_
  exact broadcastInDim_apply _ bcast_S128_S1x128_1 b (ix2 (0 : Fin 1) c) (ix1 c) (fun a => match a with
    | ⟨0, _⟩ => by show c.val = if (128 : Nat) = 1 then 0 else c.val; rw [if_neg (by decide)])

/-- The kernel's bias row, the same 128-vector recast as a `[1,128]` array, at `(0, c)`: its entry `c`. -/
theorem biasCast_apply (b : FVec Ideal S128 .f32) (c : Fin 128) :
    shapeCast Cert.KernelIdeal.S1x128 b Cert.KernelIdeal.Gen.shapeCasts_S128_S1x128 (ix2 (0 : Fin 1) c) = b (ix1 c) :=
  shapeCast_a_1a_apply b Cert.KernelIdeal.Gen.shapeCasts_S128_S1x128 0 c

/-- The zero of the reference's cut-off, a scalar broadcast over the array, at any index: `0`. -/
theorem zero_apply (i : S8192x128.Idx) :
    broadcastInDim S8192x128 ![] bcast_S_S8192x128 (constant (F := Ideal) S_ .f32 0x00000000#32) i = (0 : EReal) := by
  refine (broadcastInDim_apply _ bcast_S_S8192x128 _ i (fun a => a.elim0) (fun a => a.elim0)).trans ?_
  rw [constant_apply, Ideal.ofBits_zero_f32]

/-- The one of the logistic function's expansion, a scalar broadcast over the array, at any index. -/
theorem one_apply (i : S8192x8192.Idx) :
    broadcastInDim S8192x8192 ![] bcast_S_S8192x8192 (constant (F := Ideal) S_ .f32 0x3F800000#32) i
      = Ideal.ofBits .f32 0x3F800000#32 := by
  refine (broadcastInDim_apply _ bcast_S_S8192x8192 _ i (fun a => a.elim0) (fun a => a.elim0)).trans ?_
  rw [constant_apply]

/-! ## The three dense stages -/

/-- The first layer: the contraction with the weights, plus the broadcast bias, cut off below at zero. -/
theorem layer0_eq (X : FVec Ideal S8192x256 .f32) (W : FVec Ideal S256x128 .f32) (b : FVec Ideal S128 .f32) :
    maximumf (addf (Host.dotGeneral (F := Ideal) dot_S8192x256_S256x128_S8192x128_1_0_0_1_n_n none X W)
        (broadcastInDim S8192x128 ![0, 1] bcast_S1x128_S8192x128_0_1 (broadcastInDim S1x128 ![1] bcast_S128_S1x128_1 b)))
      (broadcastInDim S8192x128 ![] bcast_S_S8192x128 (constant (F := Ideal) S_ .f32 0x00000000#32))
    = G0 (F := Ideal) X W (shapeCast Cert.KernelIdeal.S1x128 b Cert.KernelIdeal.Gen.shapeCasts_S128_S1x128) := by
  funext i
  obtain ⟨r, c, rfl⟩ : ∃ (r : Fin 8192) (c : Fin 128), i = ix2 r c := ⟨i 0, i 1, eq_ix2 i⟩
  rw [maximumf_apply, addf_apply, dot0_apply, bias_apply, zero_apply]
  refine Eq.symm ((k0_pay1_apply _ W _ ⟨r.val % 1024, Nat.mod_lt _ (by decide)⟩ c).trans ?_)
  rw [biasCast_apply]
  simp only [rowBlk256_row]

/-- The second layer: the same without the cut-off. -/
theorem layer1_eq (X : FVec Ideal S8192x128 .f32) (W : FVec Ideal S128x128 .f32) (b : FVec Ideal S128 .f32) :
    addf (Host.dotGeneral (F := Ideal) dot_S8192x128_S128x128_S8192x128_1_0_0_1_n_n none X W)
        (broadcastInDim S8192x128 ![0, 1] bcast_S1x128_S8192x128_0_1 (broadcastInDim S1x128 ![1] bcast_S128_S1x128_1 b))
    = G1 (F := Ideal) X W (shapeCast Cert.KernelIdeal.S1x128 b Cert.KernelIdeal.Gen.shapeCasts_S128_S1x128) := by
  funext i
  obtain ⟨r, c, rfl⟩ : ∃ (r : Fin 8192) (c : Fin 128), i = ix2 r c := ⟨i 0, i 1, eq_ix2 i⟩
  rw [addf_apply, dot1_apply, bias_apply]
  refine Eq.symm ((k1_pay1_apply _ W _ ⟨r.val % 1024, Nat.mod_lt _ (by decide)⟩ c).trans ?_)
  rw [biasCast_apply]
  simp only [rowBlk128_row]

/-- The decoder: one over one plus the exponential of minus the contraction of the array with its own transpose. -/
theorem decode_eq (H : FVec Ideal S8192x128 .f32) :
    Host.divf (F := Ideal) (broadcastInDim S8192x8192 ![] bcast_S_S8192x8192 (constant (F := Ideal) S_ .f32 0x3F800000#32))
      (addf (broadcastInDim S8192x8192 ![] bcast_S_S8192x8192 (constant (F := Ideal) S_ .f32 0x3F800000#32))
        (Host.exp (F := Ideal) (Host.negf (F := Ideal) (Host.dotGeneral (F := Ideal) dot_S8192x128_S128x8192_S8192x8192_1_0_0_1_n_n none H
          (transpose S128x8192 [1, 0] H transposes_S8192x128_S128x8192_1_0)))))
    = G2 (F := Ideal) H := by
  funext i
  obtain ⟨r, s, rfl⟩ : ∃ (r : Fin 8192) (s : Fin 8192), i = ix2 r s := ⟨i 0, i 1, eq_ix2 i⟩
  refine Eq.symm ((k2_pay1_apply _ _ ⟨r.val % 1024, Nat.mod_lt _ (by decide)⟩ ⟨s.val % 1024, Nat.mod_lt _ (by decide)⟩).trans ?_)
  simp only [rowBlk128_row]
  show Ideal.logistic _ = Ideal.div (broadcastInDim S8192x8192 ![] bcast_S_S8192x8192 (constant (F := Ideal) S_ .f32 0x3F800000#32) (ix2 r s))
    ((broadcastInDim S8192x8192 ![] bcast_S_S8192x8192 (constant (F := Ideal) S_ .f32 0x3F800000#32) (ix2 r s))
      + Ideal.exp (-(Host.dotGeneral (F := Ideal) dot_S8192x128_S128x8192_S8192x8192_1_0_0_1_n_n none H
          (transpose S128x8192 [1, 0] H transposes_S8192x128_S128x8192_1_0) (ix2 r s))))
  rw [one_apply, dot2_apply]
  rw [Ideal.ofBits_one_f32]
  unfold Ideal.logistic
  refine congrArg (fun t => Ideal.div 1 (1 + Ideal.exp (-t))) (Finset.sum_congr rfl fun k _ => ?_)
  rw [transpose_ix2_apply]

end Cert.ReferenceIdeal.RefValue

end
-- ==== Proof.RefChains.lean ====
/-
  The two stretches of host operations around the linear layers, each as ONE function of what it reads.
  Both are the normalised neighbour aggregation of a graph convolution: every row of the operand is scaled by
  (max(out-degree, 1))^(-1/2) of its node, the rows are gathered along the edges' sources (a negative source index wrapped by
  the number of nodes) and summed into the edges' destinations, and every row of the sum is scaled by
  (max(in-degree, 1))^(-1/2); a degree is a scatter-add of ones over the edge list. `agg256` reads the feature matrix,
  `agg128` the first layer's output.
-/
import proofs.«129852_j3504693313816_1_alg».proof.Proof.Gen.ReferenceIdeal
import Idealize.ShloMosaic.PureOps

set_option maxRecDepth 8192

noncomputable section

namespace Cert.ReferenceIdeal.RefValue

open Idealize.ShloMosaic Cert.ReferenceIdeal Cert.ReferenceIdeal.Facts₀ Cert.ReferenceIdeal.Facts

variable {F : FTy → Type} [FloatOps F]

/-- The aggregation in front of the first linear layer, of the features `a0`, the sources `a1` and the destinations `a2`. -/
def agg256 (a0 : FVec F S8192x256 .f32) (a1 a2 : IVec S262144 32) : FVec F S8192x256 .f32 :=
  (mulf (Host.scatterAdd scatter_S8192x256_S262144x1_S262144x256_1_0_0_1 (broadcastInDim S8192x256 ![] bcast_S_S8192x256 (constant S_ .f32 0x00000000#32)) (broadcastInDim S262144x1 ![0] bcast_S262144_S262144x1_0 a2) (Host.gather gather_S8192x256_S262144x1_S262144x256_1_0_n_n_0_1_1256 (mulf a0 (broadcastInDim S8192x256 ![0, 1] bcast_S8192x1_S8192x256_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a1) (broadcastInDim S262144 ![] bcast_S_S262144 (constant S_ .f32 0x3F800000#32))) (broadcastInDim S8192 ![] bcast_S_S8192 (constant S_ .f32 0x3F800000#32))))))) (broadcastInDim S262144x1 ![0] bcast_S262144_S262144x1_0 (select (cmpi .slt a1 (broadcastInDim S262144 ![] bcast_S_S262144 (constantI S_ 32 0#32))) (addi a1 (broadcastInDim S262144 ![] bcast_S_S262144 (constantI S_ 32 8192#32))) a1)))) (broadcastInDim S8192x256 ![0, 1] bcast_S8192x1_S8192x256_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a2) (broadcastInDim S262144 ![] bcast_S_S262144 (constant S_ .f32 0x3F800000#32))) (broadcastInDim S8192 ![] bcast_S_S8192 (constant S_ .f32 0x3F800000#32)))))))

/-- The aggregation in front of the second linear layer, of the first layer's output `h1`, the sources and the destinations. -/
def agg128 (h1 : FVec F S8192x128 .f32) (a1 a2 : IVec S262144 32) : FVec F S8192x128 .f32 :=
  (mulf (Host.scatterAdd scatter_S8192x128_S262144x1_S262144x128_1_0_0_1 (broadcastInDim S8192x128 ![] bcast_S_S8192x128 (constant S_ .f32 0x00000000#32)) (broadcastInDim S262144x1 ![0] bcast_S262144_S262144x1_0 a2) (Host.gather gather_S8192x128_S262144x1_S262144x128_1_0_n_n_0_1_1128 (mulf h1 (broadcastInDim S8192x128 ![0, 1] bcast_S8192x1_S8192x128_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a1) (broadcastInDim S262144 ![] bcast_S_S262144 (constant S_ .f32 0x3F800000#32))) (broadcastInDim S8192 ![] bcast_S_S8192 (constant S_ .f32 0x3F800000#32))))))) (broadcastInDim S262144x1 ![0] bcast_S262144_S262144x1_0 (select (cmpi .slt a1 (broadcastInDim S262144 ![] bcast_S_S262144 (constantI S_ 32 0#32))) (addi a1 (broadcastInDim S262144 ![] bcast_S_S262144 (constantI S_ 32 8192#32))) a1)))) (broadcastInDim S8192x128 ![0, 1] bcast_S8192x1_S8192x128_0_1 (broadcastInDim S8192x1 ![0] bcast_S8192_S8192x1_0 (Host.rsqrt (maximumf (Host.scatterAdd scatter_S8192_S262144x1_S262144_n_0_0_1 (broadcastInDim S8192 ![] bcast_S_S8192 (constant S_ .f32 0x00000000#32)) (broadcastInDim S262144x1 ![0] bcast_S262144_S262144x1_0 a2) (broadcastInDim S262144 ![] bcast_S_S262144 (constant S_ .f32 0x3F800000#32))) (broadcastInDim S8192 ![] bcast_S_S8192 (constant S_ .f32 0x3F800000#32)))))))

end Cert.ReferenceIdeal.RefValue

end
-- ==== Proof.RefOut.lean ====
/-
  The reference's whole result as the three dense stages around its two sparse aggregation chains.  The chains
  (degree normalisation by scatter-add, scaling at the source, gather and scatter-add along the edges, scaling at
  the destination) are carried as the two functions `agg256`, `agg128` of the arrays they read and are never
  opened: only the dense stages between them are rewritten, each to the specification function of its operands.
-/
import proofs.«129852_j3504693313816_1_alg».proof.Proof.RefSide
import proofs.«129852_j3504693313816_1_alg».proof.Proof.RefChains

noncomputable section

namespace Cert.ReferenceIdeal.RefValue

open Idealize.ShloMosaic Idealize.ShloMosaic.ValueIdx Idealize.ShloMosaic.TcCoe Idealize.SL.Sem Idealize.ShloMosaic.StableHlo
open Cert.ReferenceIdeal Cert.ReferenceIdeal.Gen Cert.KernelIdeal.Hand

/-- The three dense stages around the two aggregations, over arbitrary arrays: the decoder of the second layer of
    the second aggregation of the first layer of the first aggregation. -/
theorem stages_eq (a0 : FVec Ideal S8192x256 .f32) (a1 a2 : IVec S262144 32) (a3 : FVec Ideal S256x128 .f32)
    (a4 : FVec Ideal S128 .f32) (a5 : FVec Ideal S128x128 .f32) (a6 : FVec Ideal S128 .f32) :
    Host.divf (F := Ideal) (broadcastInDim S8192x8192 ![] bcast_S_S8192x8192 (constant (F := Ideal) S_ .f32 0x3F800000#32))
      (addf (broadcastInDim S8192x8192 ![] bcast_S_S8192x8192 (constant (F := Ideal) S_ .f32 0x3F800000#32))
        (Host.exp (F := Ideal) (Host.negf (F := Ideal) (Host.dotGeneral (F := Ideal) dot_S8192x128_S128x8192_S8192x8192_1_0_0_1_n_n none
          (addf (Host.dotGeneral (F := Ideal) dot_S8192x128_S128x128_S8192x128_1_0_0_1_n_n none (agg128 (F := Ideal) (maximumf (addf (Host.dotGeneral (F := Ideal) dot_S8192x256_S256x128_S8192x128_1_0_0_1_n_n none (agg256 (F := Ideal) a0 a1 a2) a3) (broadcastInDim S8192x128 ![0, 1] bcast_S1x128_S8192x128_0_1 (broadcastInDim S1x128 ![1] bcast_S128_S1x128_1 a4))) (broadcastInDim S8192x128 ![] bcast_S_S8192x128 (constant (F := Ideal) S_ .f32 0x00000000#32))) a1 a2) a5) (broadcastInDim S8192x128 ![0, 1] bcast_S1x128_S8192x128_0_1 (broadcastInDim S1x128 ![1] bcast_S128_S1x128_1 a6)))
          (transpose S128x8192 [1, 0] (addf (Host.dotGeneral (F := Ideal) dot_S8192x128_S128x128_S8192x128_1_0_0_1_n_n none (agg128 (F := Ideal) (maximumf (addf (Host.dotGeneral (F := Ideal) dot_S8192x256_S256x128_S8192x128_1_0_0_1_n_n none (agg256 (F := Ideal) a0 a1 a2) a3) (broadcastInDim S8192x128 ![0, 1] bcast_S1x128_S8192x128_0_1 (broadcastInDim S1x128 ![1] bcast_S128_S1x128_1 a4))) (broadcastInDim S8192x128 ![] bcast_S_S8192x128 (constant (F := Ideal) S_ .f32 0x00000000#32))) a1 a2) a5) (broadcastInDim S8192x128 ![0, 1] bcast_S1x128_S8192x128_0_1 (broadcastInDim S1x128 ![1] bcast_S128_S1x128_1 a6))) transposes_S8192x128_S128x8192_1_0)))))
    = G2 (F := Ideal) (G1 (F := Ideal) (agg128 (F := Ideal) (G0 (F := Ideal) (agg256 (F := Ideal) a0 a1 a2) a3 (shapeCast Cert.KernelIdeal.S1x128 a4 Cert.KernelIdeal.Gen.shapeCasts_S128_S1x128)) a1 a2) a5 (shapeCast Cert.KernelIdeal.S1x128 a6 Cert.KernelIdeal.Gen.shapeCasts_S128_S1x128)) := by
  refine (decode_eq _).trans (congrArg (G2 (F := Ideal)) ?_)
  refine (layer1_eq _ a5 a6).trans (congrArg (fun x => G1 (F := Ideal) x a5 _) ?_)
  exact congrArg (fun x => agg128 (F := Ideal) x a1 a2) (layer0_eq (agg256 (F := Ideal) a0 a1 a2) a3 a4)

set_option maxRecDepth 8192 in
/-- The reference's result, as the run states it, is that composition of the argument arrays. -/
theorem ref_out (m : (ℓ : Loc nD τ sig) → Buf (Elt Ideal) ℓ) (c : Dev nD) :
    Cert.ReferenceIdeal.Value.res_main_v62 (F := Ideal) m c
      = G2 (F := Ideal) (G1 (F := Ideal) (agg128 (F := Ideal) (G0 (F := Ideal) (agg256 (F := Ideal) (m ((c.tc : Thread nD τ).loc main_arg0)) (m ((c.tc : Thread nD τ).loc main_arg1)) (m ((c.tc : Thread nD τ).loc main_arg2))) (m ((c.tc : Thread nD τ).loc main_arg3)) (shapeCast Cert.KernelIdeal.S1x128 (m ((c.tc : Thread nD τ).loc main_arg4)) Cert.KernelIdeal.Gen.shapeCasts_S128_S1x128)) (m ((c.tc : Thread nD τ).loc main_arg1)) (m ((c.tc : Thread nD τ).loc main_arg2))) (m ((c.tc : Thread nD τ).loc main_arg5)) (shapeCast Cert.KernelIdeal.S1x128 (m ((c.tc : Thread nD τ).loc main_arg6)) Cert.KernelIdeal.Gen.shapeCasts_S128_S1x128)) := by
  unfold Cert.ReferenceIdeal.Value.res_main_v62
  exact stages_eq _ _ _ _ _ _ _

end Cert.ReferenceIdeal.RefValue

end
-- ==== Proof.ChainsAgree.lean ====
/-
  The kernel's program and the reference apply the SAME host operations around the linear layers: the two spellings of each
  aggregation differ only in which program's dimension records they name, and those records hold the same numbers.
-/
import proofs.«129852_j3504693313816_1_alg».proof.Proof.HostChains
import proofs.«129852_j3504693313816_1_alg».proof.Proof.RefChains

noncomputable section

namespace Cert.Bridge

open Idealize.ShloMosaic

variable {F : FTy → Type} [FloatOps F]

theorem agg256_eq : @Cert.KernelIdeal.Hand.agg256 F _ = @Cert.ReferenceIdeal.RefValue.agg256 F _ := rfl

theorem agg128_eq : @Cert.KernelIdeal.Hand.agg128 F _ = @Cert.ReferenceIdeal.RefValue.agg128 F _ := rfl

end Cert.Bridge

end
-- ==== Proof.Algebraic.lean ====
/-
  The algebraic conjunct. Run from memories that agree on the arguments, the idealized kernel program and the idealized
  reference both end, and their results are one array of extended reals: the kernel's result is the decode region's function
  of the second linear region's function of the aggregation of the first linear region's function of the aggregation of the
  features; the reference's composed term is the same composition, its three dense stages being those regions' functions
  (each output entry is the same sum of the same products, whatever the tiling) and its host operations around them the same
  operations as the kernel program's. No entry needs to be finite for any of this.
-/
import proofs.«129852_j3504693313816_1_alg».proof.Defs
import proofs.«129852_j3504693313816_1_alg».proof.Proof.HostRead
import proofs.«129852_j3504693313816_1_alg».proof.Proof.RefOut
import proofs.«129852_j3504693313816_1_alg».proof.Proof.ChainsAgree
import proofs.«129852_j3504693313816_1_alg».proof.Proof.Gen.Pre_finite_inputs

noncomputable section

namespace Cert.Proof.Value

open Idealize.ShloMosaic Idealize.ShloMosaic.TcCoe Idealize.SL.Sem

theorem algebraic : Cert.algebraic_KernelIdeal_ReferenceIdeal := by
  intro m ρ m' ρ' _ hagree
  refine ⟨fun c => Cert.KernelIdeal.Hand.W5 (F := Ideal) m c (Proc.devRef .tc Cert.KernelIdeal.main_v50), ?_, ?_⟩
  · exact (θ_run (Cert.KernelIdeal.defs (F := Ideal)) _ _).mono (fun r h c =>
      ⟨h c _ (Cert.KernelIdeal.Hand.mem_uc Cert.KernelIdeal.main_v50 (by decide)),
        (h c _ (Cert.KernelIdeal.Hand.mem_uc Cert.KernelIdeal.main_arg0 (by decide))).trans (Cert.KernelIdeal.Hand.W5_main_arg0 m c),
        (h c _ (Cert.KernelIdeal.Hand.mem_uc Cert.KernelIdeal.main_arg1 (by decide))).trans (Cert.KernelIdeal.Hand.W5_main_arg1 m c),
        (h c _ (Cert.KernelIdeal.Hand.mem_uc Cert.KernelIdeal.main_arg2 (by decide))).trans (Cert.KernelIdeal.Hand.W5_main_arg2 m c),
        (h c _ (Cert.KernelIdeal.Hand.mem_uc Cert.KernelIdeal.main_arg3 (by decide))).trans (Cert.KernelIdeal.Hand.W5_main_arg3 m c),
        (h c _ (Cert.KernelIdeal.Hand.mem_uc Cert.KernelIdeal.main_arg4 (by decide))).trans (Cert.KernelIdeal.Hand.W5_main_arg4 m c),
        (h c _ (Cert.KernelIdeal.Hand.mem_uc Cert.KernelIdeal.main_arg5 (by decide))).trans (Cert.KernelIdeal.Hand.W5_main_arg5 m c),
        (h c _ (Cert.KernelIdeal.Hand.mem_uc Cert.KernelIdeal.main_arg6 (by decide))).trans (Cert.KernelIdeal.Hand.W5_main_arg6 m c)⟩)
      (Cert.KernelIdeal.Hand.run_all (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    show Cert.ReferenceIdeal.Value.res_main_v62 (F := Ideal) m' c
      = Cert.KernelIdeal.Hand.W5 (F := Ideal) m c (Proc.devRef .tc Cert.KernelIdeal.main_v50)
    rw [Cert.ReferenceIdeal.RefValue.ref_out m' c, Cert.KernelIdeal.Hand.kernel_result m c,
      (hagree c).1, (hagree c).2.1, (hagree c).2.2.1, (hagree c).2.2.2.1, (hagree c).2.2.2.2.1, (hagree c).2.2.2.2.2.1, (hagree c).2.2.2.2.2.2,
      Cert.Bridge.agg256_eq, Cert.Bridge.agg128_eq]

end Cert.Proof.Value

end
-- ==== Proof.lean ====
/-
  The certificate's claim: the kernel's program — neighbour aggregation on the host, two linear layers and a dot-product
  decoder as three kernel regions — against the plain reference. Three frames (each program runs to the end, faults nowhere,
  leaves its arguments as launched), the idealization (the ideal pass rewrote nothing, so there is nothing to preserve), and
  the equality of the two idealized programs' results over the extended reals.
-/
import proofs.«129852_j3504693313816_1_alg».proof.Defs
import proofs.«129852_j3504693313816_1_alg».proof.Proof.Gen.Kernel
import proofs.«129852_j3504693313816_1_alg».proof.Proof.Gen.KernelIdeal
import proofs.«129852_j3504693313816_1_alg».proof.Proof.Gen.ReferenceIdeal
import proofs.«129852_j3504693313816_1_alg».proof.Proof.Gen.Pre_finite_inputs
import proofs.«129852_j3504693313816_1_alg».proof.Proof.Frames
import proofs.«129852_j3504693313816_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Value.algebraic⟩

end Cert.Proof

end
